-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : FVec F S100000x64 .f32) (main_arg2 : IVec S2x1600000 32) (main_arg3 : FVec F S64x64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x65 : Shape := ⟨2, ![1600000, 65]⟩
abbrev S100000x65 : Shape := ⟨2, ![100000, 65]⟩
abbrev S100000x1 : Shape := ⟨2, ![100000, 1]⟩
abbrev S100000 : Shape := ⟨1, ![100000]⟩
abbrev S25000x256 : Shape := ⟨2, ![25000, 256]⟩
abbrev S25000x4 : Shape := ⟨2, ![25000, 4]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x1x32 : Shape := ⟨4, ![1, 64, 1, 32]⟩
abbrev S4x64x4x32 : Shape := ⟨4, ![4, 64, 4, 32]⟩
abbrev S256x128 : Shape := ⟨2, ![256, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1x1x64 : Shape := ⟨4, ![1, 1, 1, 64]⟩
abbrev S4x1x4x64 : Shape := ⟨4, ![4, 1, 4, 64]⟩
abbrev S4x256 : Shape := ⟨2, ![4, 256]⟩
abbrev S25000x128 : Shape := ⟨2, ![25000, 128]⟩
abbrev S1000x256 : Shape := ⟨2, ![1000, 256]⟩
abbrev S1000x4 : Shape := ⟨2, ![1000, 4]⟩
abbrev S1000x128 : Shape := ⟨2, ![1000, 128]⟩
abbrev S100000x32 : Shape := ⟨2, ![100000, 32]⟩

abbrev nBuf : Space → Nat
  | .hbm => 92
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S1600000x1, .f32⟩
  | .hbm, ⟨23, _⟩ => ⟨S1600000x65, .f32⟩
  | .hbm, ⟨24, _⟩ => ⟨S_, .f32⟩
  | .hbm, ⟨25, _⟩ => ⟨S100000x65, .f32⟩
  | .hbm, ⟨26, _⟩ => ⟨S1600000x1, .i32⟩
  | .hbm, ⟨27, _⟩ => ⟨S100000x65, .f32⟩
  | .hbm, ⟨28, _⟩ => ⟨S100000x64, .f32⟩
  | .hbm, ⟨29, _⟩ => ⟨S100000x1, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S25000x256, .f32⟩
  | .hbm, ⟨38, _⟩ => ⟨S25000x256, .f32⟩
  | .hbm, ⟨39, _⟩ => ⟨S25000x4, .f32⟩
  | .hbm, ⟨40, _⟩ => ⟨S4x4, .i32⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i1⟩
  | .hbm, ⟨46, _⟩ => ⟨S4x4, .f32⟩
  | .hbm, ⟨47, _⟩ => ⟨S4x1x4x1, .f32⟩
  | .hbm, ⟨48, _⟩ => ⟨S1x64x1x64, .f32⟩
  | .hbm, ⟨49, _⟩ => ⟨S4x64x4x64, .f32⟩
  | .hbm, ⟨50, _⟩ => ⟨S4x64x4x64, .f32⟩
  | .hbm, ⟨51, _⟩ => ⟨S4x64x4x64, .f32⟩
  | .hbm, ⟨52, _⟩ => ⟨S256x256, .f32⟩
  | .hbm, ⟨53, _⟩ => ⟨S4x1x4x1, .f32⟩
  | .hbm, ⟨54, _⟩ => ⟨S1x64x1x64, .f32⟩
  | .hbm, ⟨55, _⟩ => ⟨S4x64x4x64, .f32⟩
  | .hbm, ⟨56, _⟩ => ⟨S4x64x4x64, .f32⟩
  | .hbm, ⟨57, _⟩ => ⟨S4x64x4x64, .f32⟩
  | .hbm, ⟨58, _⟩ => ⟨S256x256, .f32⟩
  | .hbm, ⟨59, _⟩ => ⟨S4x1x4x1, .f32⟩
  | .hbm, ⟨60, _⟩ => ⟨S1x64x1x32, .f32⟩
  | .hbm, ⟨61, _⟩ => ⟨S4x64x4x32, .f32⟩
  | .hbm, ⟨62, _⟩ => ⟨S4x64x4x32, .f32⟩
  | .hbm, ⟨63, _⟩ => ⟨S4x64x4x32, .f32⟩
  | .hbm, ⟨64, _⟩ => ⟨S256x128, .f32⟩
  | .hbm, ⟨65, _⟩ => ⟨S1x64, .f32⟩
  | .hbm, ⟨66, _⟩ => ⟨S4x64, .f32⟩
  | .hbm, ⟨67, _⟩ => ⟨S256, .f32⟩
  | .hbm, ⟨68, _⟩ => ⟨S1x256, .f32⟩
  | .hbm, ⟨69, _⟩ => ⟨S1x32, .f32⟩
  | .hbm, ⟨70, _⟩ => ⟨S4x32, .f32⟩
  | .hbm, ⟨71, _⟩ => ⟨S128, .f32⟩
  | .hbm, ⟨72, _⟩ => ⟨S1x128, .f32⟩
  | .hbm, ⟨73, _⟩ => ⟨S4x4, .i32⟩
  | .hbm, ⟨74, _⟩ => ⟨S4x4, .i32⟩
  | .hbm, ⟨75, _⟩ => ⟨S_, .i32⟩
  | .hbm, ⟨76, _⟩ => ⟨S4x4, .i32⟩
  | .hbm, ⟨77, _⟩ => ⟨S4x4, .i32⟩
  | .hbm, ⟨78, _⟩ => ⟨S4x4, .i1⟩
  | .hbm, ⟨79, _⟩ => ⟨S4x4, .f32⟩
  | .hbm, ⟨80, _⟩ => ⟨S_, .f32⟩
  | .hbm, ⟨81, _⟩ => ⟨S1x64, .f32⟩
  | .hbm, ⟨82, _⟩ => ⟨S4x1x4x1, .f32⟩
  | .hbm, ⟨83, _⟩ => ⟨S1x1x1x64, .f32⟩
  | .hbm, ⟨84, _⟩ => ⟨S4x1x4x64, .f32⟩
  | .hbm, ⟨85, _⟩ => ⟨S4x1x4x64, .f32⟩
  | .hbm, ⟨86, _⟩ => ⟨S4x1x4x64, .f32⟩
  | .hbm, ⟨87, _⟩ => ⟨S4x256, .f32⟩
  | .hbm, ⟨88, _⟩ => ⟨S25000x256, .f32⟩
  | .hbm, ⟨89, _⟩ => ⟨S25000x128, .f32⟩
  | .hbm, ⟨90, _⟩ => ⟨S100000x64, .f32⟩
  | .hbm, ⟨91, _⟩ => ⟨S100000x32, .f32⟩
  | .local _ .vmem, ⟨0, _⟩ => ⟨S1000x256, .f32⟩
  | .local _ .vmem, ⟨1, _⟩ => ⟨S1000x256, .f32⟩
  | .local _ .vmem, ⟨2, _⟩ => ⟨S1000x4, .f32⟩
  | .local _ .vmem, ⟨3, _⟩ => ⟨S1000x4, .f32⟩
  | .local _ .vmem, ⟨4, _⟩ => ⟨S1000x256, .f32⟩
  | .local _ .vmem, ⟨5, _⟩ => ⟨S1000x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S4x256, .f32⟩
  | .local _ .vmem, ⟨12, _⟩ => ⟨S1000x256, .f32⟩
  | .local _ .vmem, ⟨13, _⟩ => ⟨S1000x256, .f32⟩
  | .local _ .vmem, ⟨14, _⟩ => ⟨S1000x128, .f32⟩
  | .local _ .vmem, ⟨15, _⟩ => ⟨S1000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v32 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v33 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v50 : Ref sig .tc := ⟨.hbm, 87, rfl⟩
abbrev main_v51_0 : Ref sig .tc := ⟨.hbm, 88, rfl⟩
abbrev main_v51_1 : Ref sig .tc := ⟨.hbm, 89, rfl⟩
abbrev main_v52 : Ref sig .tc := ⟨.hbm, 90, rfl⟩
abbrev main_v53 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S100000x1_S100000 : S100000x1.ShapeCasts S100000
  bcast_S_S100000 : S_.BroadcastsInDim S100000 (![] : Fin 0 → Fin S100000.rank)
  shapeCasts_S100000x64_S25000x256 : S100000x64.ShapeCasts S25000x256
  shapeCasts_S100000_S25000x4 : S100000.ShapeCasts S25000x4
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S64x64_S1x64x1x64_1_3 : S64x64.BroadcastsInDim S1x64x1x64 (![1, 3] : Fin 2 → Fin S1x64x1x64.rank)
  bcast_S4x1x4x1_S4x64x4x64_0_1_2_3 : S4x1x4x1.BroadcastsInDim S4x64x4x64 (![0, 1, 2, 3] : Fin 4 → Fin S4x64x4x64.rank)
  bcast_S1x64x1x64_S4x64x4x64_0_1_2_3 : S1x64x1x64.BroadcastsInDim S4x64x4x64 (![0, 1, 2, 3] : Fin 4 → Fin S4x64x4x64.rank)
  shapeCasts_S4x64x4x64_S256x256 : S4x64x4x64.ShapeCasts S256x256
  bcast_S64x32_S1x64x1x32_1_3 : S64x32.BroadcastsInDim S1x64x1x32 (![1, 3] : Fin 2 → Fin S1x64x1x32.rank)
  bcast_S4x1x4x1_S4x64x4x32_0_1_2_3 : S4x1x4x1.BroadcastsInDim S4x64x4x32 (![0, 1, 2, 3] : Fin 4 → Fin S4x64x4x32.rank)
  bcast_S1x64x1x32_S4x64x4x32_0_1_2_3 : S1x64x1x32.BroadcastsInDim S4x64x4x32 (![0, 1, 2, 3] : Fin 4 → Fin S4x64x4x32.rank)
  shapeCasts_S4x64x4x32_S256x128 : S4x64x4x32.ShapeCasts S256x128
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  bcast_S256_S1x256_1 : S256.BroadcastsInDim S1x256 (![1] : Fin 1 → Fin S1x256.rank)
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  bcast_S128_S1x128_1 : S128.BroadcastsInDim S1x128 (![1] : Fin 1 → Fin S1x128.rank)
  bcast_S_S1x64 : S_.BroadcastsInDim S1x64 (![] : Fin 0 → Fin S1x64.rank)
  bcast_S1x64_S1x1x1x64_1_3 : S1x64.BroadcastsInDim S1x1x1x64 (![1, 3] : Fin 2 → Fin S1x1x1x64.rank)
  bcast_S4x1x4x1_S4x1x4x64_0_1_2_3 : S4x1x4x1.BroadcastsInDim S4x1x4x64 (![0, 1, 2, 3] : Fin 4 → Fin S4x1x4x64.rank)
  bcast_S1x1x1x64_S4x1x4x64_0_1_2_3 : S1x1x1x64.BroadcastsInDim S4x1x4x64 (![0, 1, 2, 3] : Fin 4 → Fin S4x1x4x64.rank)
  shapeCasts_S4x1x4x64_S4x256 : S4x1x4x64.ShapeCasts S4x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1000x4_S1000x4_0_0 : ∀ a, (![0, 0] : Fin 2 → Nat) a + S1000x4.size a ≤ S1000x4.size a
  h_S1000x4 : 0 < S1000x4.numel
  shapeCasts_S1000x4_S1000x4 : S1000x4.ShapeCasts S1000x4
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S25000x256_S100000x64 : S25000x256.ShapeCasts S100000x64
  shapeCasts_S25000x128_S100000x32 : S25000x128.ShapeCasts S100000x32
  gather_S100000x64_S1600000x1_S1600000x64_1_0_n_n_0_1_164_wf : GatherDims.WF S100000x64 S1600000x1 S1600000x64 [1] [0] [] [0] [] 1 ![1, 64]
  scatter_S100000x65_S1600000x1_S1600000x65_1_0_0_1_wf : ScatterDims.WF S100000x65 S1600000x1 S1600000x65 [1] [0] [0] 1
  dot_S1000x256_S256x256_S1000x256_1_0_0_1_n_n_wf : DotDims.WF S1000x256 S256x256 S1000x256 [1] [0] [0] [1] [] []
  dot_S1000x4_S4x256_S1000x256_1_0_0_1_n_n_wf : DotDims.WF S1000x4 S4x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S25000x256.size a
  hwx0_0 : ∀ i : grid0.Coords, EltTy.bits .f32 = 32 ∨ (Rect.block (s := S25000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S25000x4.size a
  hwx0_1 : ∀ i : grid0.Coords, EltTy.bits .f32 = 32 ∨ (Rect.block (s := S25000x4) S1000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S25000x256.size a
  hwx0_2 : ∀ i : grid0.Coords, EltTy.bits .f32 = 32 ∨ (Rect.block (s := S25000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S25000x256.size a
  hwx0_9 : ∀ i : grid0.Coords, EltTy.bits .f32 = 32 ∨ (Rect.block (s := S25000x256) S1000x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x128.size a ≤ S25000x128.size a
  hwx0_10 : ∀ i : grid0.Coords, EltTy.bits .f32 = 32 ∨ (Rect.block (s := S25000x128) S1000x128.size (cc0_transform_10 i) (hinb0_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x4_S4x256_S1000x256_1_0_0_1_n_n : DotDims S1000x4 S4x256 S1000x256 where
  lhsContracting := [1]
  rhsContracting := [0]
  lhsNonContracting := [0]
  rhsNonContracting := [1]
  lhsBatch := []
  rhsBatch := []
  wf := dot_S1000x4_S4x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v23) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51_0) S1000x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v51_1) S1000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.Spec.lean ====
/-
  The layer the two programs compute, as functions on the extended reals.

  For a node n with aggregated messages agg n (64 entries), in-degree deg n, features u n, weights W, B (64 × 64),
  bias b, head weights Wp (64 × 32) and head bias bp:

    hidden n h = max ( ∑ k, (agg n k / max (deg n) 1) · W k h  +  ∑ k, u n k · B k h  +  b h ) 0
    head   n j = ∑ h, hidden n h · Wp h j  +  bp j

  The float words 1.0 and 0.0 are kept as words: the same word stands on both sides of every equation below and is
  only evaluated where the degree's clamp has to be a positive real.
-/
import Idealize.ShloMosaic.PureOps.Ideal
import Idealize.ShloMosaic.Lib.ValueIdx

noncomputable section

namespace Cert.Layer

open Idealize.ShloMosaic

/-- The word of the float 1.0 read as an extended real. -/
abbrev oneW : EReal := Ideal.ofBits .f32 0x3F800000#32
/-- The word of the float 0.0 read as an extended real. -/
abbrev zeroW : EReal := Ideal.ofBits .f32 0x00000000#32

/-- The in-degree clamped below by one: the divisor of the mean aggregation. -/
def clampDeg (deg : Fin 100000 → EReal) (n : Fin 100000) : EReal := max (deg n) oneW

/-- The updated node state: the mean of the aggregated messages through W, the node's features through B, the bias,
    and the rectifier. -/
def hidden (agg : Fin 100000 → Fin 64 → EReal) (deg : Fin 100000 → EReal) (u : Fin 100000 → Fin 64 → EReal)
    (W B : Fin 64 → Fin 64 → EReal) (b : Fin 64 → EReal) (n : Fin 100000) (h : Fin 64) : EReal :=
  max (((∑ k : Fin 64, Ideal.div (agg n k) (clampDeg deg n) * W k h) + ∑ k : Fin 64, u n k * B k h) + b h) zeroW

/-- The prediction head on a node state x. -/
def head (x : Fin 100000 → Fin 64 → EReal) (Wp : Fin 64 → Fin 32 → EReal) (bp : Fin 32 → EReal)
    (n : Fin 100000) (j : Fin 32) : EReal :=
  (∑ h : Fin 64, x n h * Wp h j) + bp j

end Cert.Layer

end
-- ==== Proof.Payload.lean ====
/-
  The kernel body's two stores read at an index.

  For a tile of 1000 packed rows the body computes, with A, U the tile's packed message sums and features (1000 × 256),
  D its packed reciprocal degrees (1000 × 4), W4, B4 (256 × 256), Wp4 (256 × 128), E4 (4 × 256) and the bias rows:

    X (y, c) = max ( (∑ k, A(y,k)·W4(k,c)) · (∑ q, D(y,q)·E4(q,c)) + ∑ k, U(y,k)·B4(k,c) + b4(0,c) ) 0
    Y (y, c) = ∑ k, X(y,k)·Wp4(k,c) + bp4(0,c)

  At Ideal a change of float format is the identity and a matrix product into the zero array is the plain sum over the
  contracted coordinate.
-/
import proofs.«161085_j73383811220028_2_alg».proof.Proof.Gen.KernelIdeal.Skeleton
import proofs.«161085_j73383811220028_2_alg».proof.Proof.LibMatmulNN
import proofs.«161085_j73383811220028_2_alg».proof.Proof.Spec
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

/-- The tile's hidden state at (y, c), as a function of the body's seven loads. -/
def tileHidden (v0 : FVec Ideal S1000x256 .f32) (v3 : FVec Ideal S256x256 .f32) (v7 : FVec Ideal S1000x4 .f32)
    (v10 : FVec Ideal S4x256 .f32) (v15 : FVec Ideal S1000x256 .f32) (v18 : FVec Ideal S256x256 .f32)
    (v23 : FVec Ideal S1x256 .f32) (y : Fin 1000) (c : Fin 256) : EReal :=
  max ((((∑ k : Fin 256, v0 (ix2 y k) * v3 (ix2 k c)) * ∑ q : Fin 4, v7 (ix2 y q) * v10 (ix2 q c))
      + ∑ k : Fin 256, v15 (ix2 y k) * v18 (ix2 k c)) + v23 (ix2 (0 : Fin 1) c)) Cert.Layer.zeroW

/-- The first store's value at (y, c). -/
theorem pay2_apply (v0 : FVec Ideal S1000x256 .f32) (v3 : FVec Ideal S256x256 .f32) (v7 : FVec Ideal S1000x4 .f32)
    (v10 : FVec Ideal S4x256 .f32) (v15 : FVec Ideal S1000x256 .f32) (v18 : FVec Ideal S256x256 .f32)
    (v23 : FVec Ideal S1x256 .f32) (y : Fin 1000) (c : Fin 256) :
    k0_pay2 (F := Ideal) v0 v3 v7 v10 v15 v18 v23 (ix2 y c) = tileHidden v0 v3 v7 v10 v15 v18 v23 y c := by
  unfold k0_pay2 tileHidden
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · refine (MatmulNN.matmul_zero_apply (M := 1000) (K := 256) (N := 256) none _ _ y c).trans ?_
        refine Finset.sum_congr rfl fun k _ => ?_
        rw [truncf_apply, truncf_apply, shapeCast_self, shapeCast_self]
      · refine (MatmulNN.matmul_zero_apply (M := 1000) (K := 4) (N := 256) none _ _ y c).trans ?_
        refine Finset.sum_congr rfl fun k _ => ?_
        rw [truncf_apply, truncf_apply, shapeCast_self, shapeCast_self]
    · refine (MatmulNN.matmul_zero_apply (M := 1000) (K := 256) (N := 256) none _ _ y c).trans ?_
      refine Finset.sum_congr rfl fun k _ => ?_
      rw [truncf_apply, truncf_apply, shapeCast_self, shapeCast_self]
  · rw [shapeCast_self]
    exact broadcastTo_1b_ab_apply v23 broadcasts_S1x256_S1000x256 y c

/-- The second store's value at (y, c): the tile's hidden state through the head. -/
theorem pay1_pay3_apply (v0 : FVec Ideal S1000x256 .f32) (v3 : FVec Ideal S256x256 .f32) (v7 : FVec Ideal S1000x4 .f32)
    (v10 : FVec Ideal S4x256 .f32) (v15 : FVec Ideal S1000x256 .f32) (v18 : FVec Ideal S256x256 .f32)
    (v23 : FVec Ideal S1x256 .f32) (v31 : FVec Ideal S256x128 .f32) (v35 : FVec Ideal S1x128 .f32)
    (y : Fin 1000) (c : Fin 128) :
    k0_pay1 (F := Ideal) (k0_pay3 (F := Ideal) v0 v3 v7 v10 v15 v18 v23 v31) v35 (ix2 y c)
      = (∑ k : Fin 256, tileHidden v0 v3 v7 v10 v15 v18 v23 y k * v31 (ix2 k c)) + v35 (ix2 (0 : Fin 1) c) := by
  unfold k0_pay1 k0_pay3
  refine (addf_apply _ _ _).trans ?_
  refine congrArg₂ (· + ·) ?_ ?_
  · refine (MatmulNN.matmul_zero_apply (M := 1000) (K := 256) (N := 128) none _ _ y c).trans ?_
    refine Finset.sum_congr rfl fun k _ => ?_
    rw [truncf_apply, truncf_apply, shapeCast_self, pay2_apply]
  · rw [shapeCast_self]
    exact broadcastTo_1b_ab_apply v35 broadcasts_S1x128_S1000x128 y c

end Cert.KernelIdeal.Payload

end
-- ==== Proof.Blocks.lean ====
/-
  From the tiles to the two output arrays.

  The grid has 25 points; point t works on packed rows 1000·t … 1000·t + 999 of the three row-tiled operands and of both
  results, and on the whole of the six parameter operands. So what point t writes back is the restriction to its rows
  of ONE function of the operand arrays: at packed row R and lane c

    rowHidden (R, c) = max ( (∑ k, A(R,k)·W4(k,c)) · (∑ q, D(R,q)·E4(q,c)) + ∑ k, U(R,k)·B4(k,c) + b4(0,c) ) 0
    rowHead   (R, c) = ∑ k, rowHidden(R,k)·Wp4(k,c) + bp4(0,c)

  and the 25 tiles cover every row, so after the run the two result arrays ARE these functions.
-/
import proofs.«161085_j73383811220028_2_alg».proof.Proof.Gen.KernelIdeal.Frame
import proofs.«161085_j73383811220028_2_alg».proof.Proof.Payload

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The hidden state of packed row R at lane c, from the whole operand arrays. -/
def rowHidden (A U : S25000x256.Idx → EReal) (D : S25000x4.Idx → EReal) (W4 B4 : S256x256.Idx → EReal)
    (E4 : S4x256.Idx → EReal) (bb : S1x256.Idx → EReal) (R : Fin 25000) (c : Fin 256) : EReal :=
  max ((((∑ k : Fin 256, A (ix2 R k) * W4 (ix2 k c)) * ∑ q : Fin 4, D (ix2 R q) * E4 (ix2 q c))
      + ∑ k : Fin 256, U (ix2 R k) * B4 (ix2 k c)) + bb (ix2 (0 : Fin 1) c)) Cert.Layer.zeroW

/-- The head of packed row R at lane c, from a packed hidden state X. -/
def rowHead (X : Fin 25000 → Fin 256 → EReal) (Wp4 : S256x128.Idx → EReal) (bp : S1x128.Idx → EReal)
    (R : Fin 25000) (c : Fin 128) : EReal :=
  (∑ k : Fin 256, X R k * Wp4 (ix2 k c)) + bp (ix2 (0 : Fin 1) c)

/-- The first result array as one function of the operand arrays. -/
def hiddenArr (A U : S25000x256.Idx → EReal) (D : S25000x4.Idx → EReal) (W4 B4 : S256x256.Idx → EReal)
    (E4 : S4x256.Idx → EReal) (bb : S1x256.Idx → EReal) : S25000x256.Idx → EReal :=
  fun i => rowHidden A U D W4 B4 E4 bb ⟨(i 0).val, (i 0).isLt⟩ ⟨(i 1).val, (i 1).isLt⟩

/-- The second result array as one function of the operand arrays. -/
def headArr (A U : S25000x256.Idx → EReal) (D : S25000x4.Idx → EReal) (W4 B4 : S256x256.Idx → EReal)
    (E4 : S4x256.Idx → EReal) (bb : S1x256.Idx → EReal) (Wp4 : S256x128.Idx → EReal) (bp : S1x128.Idx → EReal) :
    S25000x128.Idx → EReal :=
  fun i => rowHead (rowHidden A U D W4 B4 E4 bb) Wp4 bp ⟨(i 0).val, (i 0).isLt⟩ ⟨(i 1).val, (i 1).isLt⟩

/-- A tile's hidden state is the rows' when the tile's loads are the arrays' rows 1000·T + y and the parameter loads
    the whole parameter arrays. -/
theorem tile_row (x0 x2 : FVec Ideal S1000x256 .f32) (x1 : FVec Ideal S1000x4 .f32) (x3 x4 : FVec Ideal S256x256 .f32)
    (x5 : FVec Ideal S1x256 .f32) (x8 : FVec Ideal S4x256 .f32)
    (A U : S25000x256.Idx → EReal) (D : S25000x4.Idx → EReal) (W4 B4 : S256x256.Idx → EReal)
    (E4 : S4x256.Idx → EReal) (bb : S1x256.Idx → EReal) (R : Fin 25000) (y : Fin 1000)
    (h0 : ∀ k : Fin 256, x0 (ix2 y k) = A (ix2 R k)) (h1 : ∀ q : Fin 4, x1 (ix2 y q) = D (ix2 R q))
    (h2 : ∀ k : Fin 256, x2 (ix2 y k) = U (ix2 R k)) (h3 : ∀ (k c : Fin 256), x3 (ix2 k c) = W4 (ix2 k c))
    (h4 : ∀ (k c : Fin 256), x4 (ix2 k c) = B4 (ix2 k c)) (h5 : ∀ c : Fin 256, x5 (ix2 (0 : Fin 1) c) = bb (ix2 (0 : Fin 1) c))
    (h8 : ∀ (q : Fin 4) (c : Fin 256), x8 (ix2 q c) = E4 (ix2 q c)) (c : Fin 256) :
    tileHidden x0 x3 x1 x8 x2 x4 x5 y c = rowHidden A U D W4 B4 E4 bb R c := by
  unfold tileHidden rowHidden
  simp only [h0, h1, h2, h3, h4, h5, h8]

/-! ## The printed index maps, decided over the grid -/

/-- The row-tiled windows (the three operands tiled by rows and both results) sit at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The parameter windows sit at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row y of tile t is packed row 1000·t + y. -/
abbrev tileRow (t : Fin cfg0.N) (y : Fin 1000) : Fin 25000 :=
  ⟨1000 * t.val + y.val, by have h : t.val < 25 := t.isLt; have := y.isLt; omega⟩

/-! ## A window's block at a point, of any array, read at an index -/

theorem read0 (G : S25000x256.Idx → EReal) (t : Fin cfg0.N) (y : Fin 1000) (k : Fin 256) :
    ((cfg0.win 0).blk t).view.read (Elt Ideal) G (ix2 y k) = G (ix2 (tileRow t y) k) := by
  obtain ⟨e0, e1, -⟩ := idx_rows t
  show G (((cfg0.win 0).blk t).view.emb (ix2 y k)) = _
  refine congrArg G (funext fun a => Fin.ext ?_)
  match a with
  | ⟨0, _⟩ => show win0_0.index t (0 : Fin 2) * 1000 + 1 * y.val = 1000 * t.val + y.val; omega
  | ⟨1, _⟩ => show win0_0.index t (1 : Fin 2) * 256 + 1 * k.val = k.val; omega

theorem read1 (G : S25000x4.Idx → EReal) (t : Fin cfg0.N) (y : Fin 1000) (q : Fin 4) :
    ((cfg0.win 1).blk t).view.read (Elt Ideal) G (ix2 y q) = G (ix2 (tileRow t y) q) := by
  obtain ⟨-, -, e0, e1, -⟩ := idx_rows t
  show G (((cfg0.win 1).blk t).view.emb (ix2 y q)) = _
  refine congrArg G (funext fun a => Fin.ext ?_)
  match a with
  | ⟨0, _⟩ => show win0_1.index t (0 : Fin 2) * 1000 + 1 * y.val = 1000 * t.val + y.val; omega
  | ⟨1, _⟩ => show win0_1.index t (1 : Fin 2) * 4 + 1 * q.val = q.val; omega

theorem read2 (G : S25000x256.Idx → EReal) (t : Fin cfg0.N) (y : Fin 1000) (k : Fin 256) :
    ((cfg0.win 2).blk t).view.read (Elt Ideal) G (ix2 y k) = G (ix2 (tileRow t y) k) := by
  obtain ⟨-, -, -, -, e0, e1, -⟩ := idx_rows t
  show G (((cfg0.win 2).blk t).view.emb (ix2 y k)) = _
  refine congrArg G (funext fun a => Fin.ext ?_)
  match a with
  | ⟨0, _⟩ => show win0_2.index t (0 : Fin 2) * 1000 + 1 * y.val = 1000 * t.val + y.val; omega
  | ⟨1, _⟩ => show win0_2.index t (1 : Fin 2) * 256 + 1 * k.val = k.val; omega

theorem read3 (G : S256x256.Idx → EReal) (t : Fin cfg0.N) (k : Fin 256) (c' : Fin 256) :
    ((cfg0.win 3).blk t).view.read (Elt Ideal) G (ix2 k c') = G (ix2 k c') := by
  obtain ⟨e0, e1, -⟩ := idx_whole t
  show G (((cfg0.win 3).blk t).view.emb (ix2 k c')) = _
  refine congrArg G (funext fun a => Fin.ext ?_)
  match a with
  | ⟨0, _⟩ => show win0_3.index t (0 : Fin 2) * 256 + 1 * k.val = k.val; omega
  | ⟨1, _⟩ => show win0_3.index t (1 : Fin 2) * 256 + 1 * c'.val = c'.val; omega

theorem read4 (G : S256x256.Idx → EReal) (t : Fin cfg0.N) (k : Fin 256) (c' : Fin 256) :
    ((cfg0.win 4).blk t).view.read (Elt Ideal) G (ix2 k c') = G (ix2 k c') := by
  obtain ⟨-, -, e0, e1, -⟩ := idx_whole t
  show G (((cfg0.win 4).blk t).view.emb (ix2 k c')) = _
  refine congrArg G (funext fun a => Fin.ext ?_)
  match a with
  | ⟨0, _⟩ => show win0_4.index t (0 : Fin 2) * 256 + 1 * k.val = k.val; omega
  | ⟨1, _⟩ => show win0_4.index t (1 : Fin 2) * 256 + 1 * c'.val = c'.val; omega

theorem read5 (G : S1x256.Idx → EReal) (t : Fin cfg0.N)  (c' : Fin 256) :
    ((cfg0.win 5).blk t).view.read (Elt Ideal) G (ix2 (0 : Fin 1) c') = G (ix2 (0 : Fin 1) c') := by
  obtain ⟨-, -, -, -, e0, e1, -⟩ := idx_whole t
  show G (((cfg0.win 5).blk t).view.emb (ix2 (0 : Fin 1) c')) = _
  refine congrArg G (funext fun a => Fin.ext ?_)
  match a with
  | ⟨0, _⟩ => show win0_5.index t (0 : Fin 2) * 1 + 1 * 0 = 0; omega
  | ⟨1, _⟩ => show win0_5.index t (1 : Fin 2) * 256 + 1 * c'.val = c'.val; omega

theorem read6 (G : S256x128.Idx → EReal) (t : Fin cfg0.N) (k : Fin 256) (c' : Fin 128) :
    ((cfg0.win 6).blk t).view.read (Elt Ideal) G (ix2 k c') = G (ix2 k c') := by
  obtain ⟨-, -, -, -, -, -, e0, e1, -⟩ := idx_whole t
  show G (((cfg0.win 6).blk t).view.emb (ix2 k c')) = _
  refine congrArg G (funext fun a => Fin.ext ?_)
  match a with
  | ⟨0, _⟩ => show win0_6.index t (0 : Fin 2) * 256 + 1 * k.val = k.val; omega
  | ⟨1, _⟩ => show win0_6.index t (1 : Fin 2) * 128 + 1 * c'.val = c'.val; omega

theorem read7 (G : S1x128.Idx → EReal) (t : Fin cfg0.N)  (c' : Fin 128) :
    ((cfg0.win 7).blk t).view.read (Elt Ideal) G (ix2 (0 : Fin 1) c') = G (ix2 (0 : Fin 1) c') := by
  obtain ⟨-, -, -, -, -, -, -, -, e0, e1, -⟩ := idx_whole t
  show G (((cfg0.win 7).blk t).view.emb (ix2 (0 : Fin 1) c')) = _
  refine congrArg G (funext fun a => Fin.ext ?_)
  match a with
  | ⟨0, _⟩ => show win0_7.index t (0 : Fin 2) * 1 + 1 * 0 = 0; omega
  | ⟨1, _⟩ => show win0_7.index t (1 : Fin 2) * 128 + 1 * c'.val = c'.val; omega

theorem read8 (G : S4x256.Idx → EReal) (t : Fin cfg0.N) (q : Fin 4) (c' : Fin 256) :
    ((cfg0.win 8).blk t).view.read (Elt Ideal) G (ix2 q c') = G (ix2 q c') := by
  obtain ⟨-, -, -, -, -, -, -, -, -, -, e0, e1⟩ := idx_whole t
  show G (((cfg0.win 8).blk t).view.emb (ix2 q c')) = _
  refine congrArg G (funext fun a => Fin.ext ?_)
  match a with
  | ⟨0, _⟩ => show win0_8.index t (0 : Fin 2) * 4 + 1 * q.val = q.val; omega
  | ⟨1, _⟩ => show win0_8.index t (1 : Fin 2) * 256 + 1 * c'.val = c'.val; omega

/-! ## What a point writes back, for any operand arrays -/

section Generic

variable (G0 G2 : S25000x256.Idx → EReal) (G1 : S25000x4.Idx → EReal) (G3 G4 : S256x256.Idx → EReal)
  (G5 : S1x256.Idx → EReal) (G6 : S256x128.Idx → EReal) (G7 : S1x128.Idx → EReal) (G8 : S4x256.Idx → EReal)

/-- The tile's hidden state at point t is the packed rows' hidden state. -/
theorem tile_hidden (t : Fin cfg0.N) (y : Fin 1000) (k : Fin 256) :
    tileHidden (((cfg0.win 0).blk t).view.read (Elt Ideal) G0) (((cfg0.win 3).blk t).view.read (Elt Ideal) G3) (((cfg0.win 1).blk t).view.read (Elt Ideal) G1) (((cfg0.win 8).blk t).view.read (Elt Ideal) G8) (((cfg0.win 2).blk t).view.read (Elt Ideal) G2) (((cfg0.win 4).blk t).view.read (Elt Ideal) G4) (((cfg0.win 5).blk t).view.read (Elt Ideal) G5) y k
      = rowHidden G0 G2 G1 G3 G4 G8 G5 (tileRow t y) k :=
  tile_row (((cfg0.win 0).blk t).view.read (Elt Ideal) G0) (((cfg0.win 2).blk t).view.read (Elt Ideal) G2) (((cfg0.win 1).blk t).view.read (Elt Ideal) G1) (((cfg0.win 3).blk t).view.read (Elt Ideal) G3) (((cfg0.win 4).blk t).view.read (Elt Ideal) G4) (((cfg0.win 5).blk t).view.read (Elt Ideal) G5) (((cfg0.win 8).blk t).view.read (Elt Ideal) G8)
    G0 G2 G1 G3 G4 G8 G5 (tileRow t y) y (fun k => read0 G0 t y k) (fun q => read1 G1 t y q) (fun k => read2 G2 t y k)
    (fun k c' => read3 G3 t k c') (fun k c' => read4 G4 t k c') (fun c' => read5 G5 t c') (fun q c' => read8 G8 t q c') k

/-- What point t leaves in the first result's window is block t of hiddenArr. -/
theorem flush9 (t : Fin cfg0.N) :
    (cfg0.win 9).cut (grid0.coords t) (out0_9 (F := Ideal) (((cfg0.win 0).blk t).view.read (Elt Ideal) G0) (((cfg0.win 1).blk t).view.read (Elt Ideal) G1) (((cfg0.win 2).blk t).view.read (Elt Ideal) G2) (((cfg0.win 3).blk t).view.read (Elt Ideal) G3) (((cfg0.win 4).blk t).view.read (Elt Ideal) G4) (((cfg0.win 5).blk t).view.read (Elt Ideal) G5) (((cfg0.win 6).blk t).view.read (Elt Ideal) G6) (((cfg0.win 7).blk t).view.read (Elt Ideal) G7) (((cfg0.win 8).blk t).view.read (Elt Ideal) G8))
      = ((cfg0.win 9).blk t).view.read (Elt Ideal) (hiddenArr G0 G2 G1 G3 G4 G8 G5) := by
  unfold out0_9
  rw [View.canon_unit_zero hz]
  simp only [View.ld_unit_zero (S := S1000x256) hz, View.ld_unit_zero (S := S256x256) hz, View.ld_unit_zero (S := S1000x4) hz, View.ld_unit_zero (S := S4x256) hz, View.ld_unit_zero (S := S1x256) hz]
  funext j
  obtain ⟨y, k, rfl⟩ : ∃ (y : Fin 1000) (k : Fin 256), j = ix2 y k := ⟨j 0, j 1, eq_ix2 j⟩
  obtain ⟨-, -, -, -, -, -, e0, e1, -⟩ := idx_rows t
  show k0_pay2 (F := Ideal) (((cfg0.win 0).blk t).view.read (Elt Ideal) G0) (((cfg0.win 3).blk t).view.read (Elt Ideal) G3) (((cfg0.win 1).blk t).view.read (Elt Ideal) G1) (((cfg0.win 8).blk t).view.read (Elt Ideal) G8) (((cfg0.win 2).blk t).view.read (Elt Ideal) G2) (((cfg0.win 4).blk t).view.read (Elt Ideal) G4) (((cfg0.win 5).blk t).view.read (Elt Ideal) G5) (ix2 y k)
    = hiddenArr G0 G2 G1 G3 G4 G8 G5 (((cfg0.win 9).blk t).view.emb (ix2 y k))
  refine (pay2_apply (((cfg0.win 0).blk t).view.read (Elt Ideal) G0) (((cfg0.win 3).blk t).view.read (Elt Ideal) G3) (((cfg0.win 1).blk t).view.read (Elt Ideal) G1) (((cfg0.win 8).blk t).view.read (Elt Ideal) G8) (((cfg0.win 2).blk t).view.read (Elt Ideal) G2) (((cfg0.win 4).blk t).view.read (Elt Ideal) G4) (((cfg0.win 5).blk t).view.read (Elt Ideal) G5) y k).trans ?_
  refine (tile_hidden G0 G2 G1 G3 G4 G5 G8 t y k).trans ?_
  change _ = rowHidden G0 G2 G1 G3 G4 G8 G5 ⟨_, _⟩ ⟨_, _⟩
  refine congrArg₂ (rowHidden G0 G2 G1 G3 G4 G8 G5) (Fin.ext ?_) (Fin.ext ?_)
  · show 1000 * t.val + y.val = win0_9.index t (0 : Fin 2) * 1000 + 1 * y.val; omega
  · show k.val = win0_9.index t (1 : Fin 2) * 256 + 1 * k.val; omega

/-- What point t leaves in the second result's window is block t of headArr. -/
theorem flush10 (t : Fin cfg0.N) :
    (cfg0.win 10).cut (grid0.coords t) (out0_10 (F := Ideal) (((cfg0.win 0).blk t).view.read (Elt Ideal) G0) (((cfg0.win 1).blk t).view.read (Elt Ideal) G1) (((cfg0.win 2).blk t).view.read (Elt Ideal) G2) (((cfg0.win 3).blk t).view.read (Elt Ideal) G3) (((cfg0.win 4).blk t).view.read (Elt Ideal) G4) (((cfg0.win 5).blk t).view.read (Elt Ideal) G5) (((cfg0.win 6).blk t).view.read (Elt Ideal) G6) (((cfg0.win 7).blk t).view.read (Elt Ideal) G7) (((cfg0.win 8).blk t).view.read (Elt Ideal) G8))
      = ((cfg0.win 10).blk t).view.read (Elt Ideal) (headArr G0 G2 G1 G3 G4 G8 G5 G6 G7) := by
  unfold out0_10
  rw [View.canon_unit_zero hz]
  simp only [View.ld_unit_zero (S := S1000x256) hz, View.ld_unit_zero (S := S256x256) hz, View.ld_unit_zero (S := S1000x4) hz, View.ld_unit_zero (S := S4x256) hz, View.ld_unit_zero (S := S1x256) hz, View.ld_unit_zero (S := S256x128) hz, View.ld_unit_zero (S := S1x128) hz]
  funext j
  obtain ⟨y, k, rfl⟩ : ∃ (y : Fin 1000) (k : Fin 128), j = ix2 y k := ⟨j 0, j 1, eq_ix2 j⟩
  obtain ⟨-, -, -, -, -, -, -, -, e0, e1⟩ := idx_rows t
  show k0_pay1 (F := Ideal) (k0_pay3 (F := Ideal) (((cfg0.win 0).blk t).view.read (Elt Ideal) G0) (((cfg0.win 3).blk t).view.read (Elt Ideal) G3) (((cfg0.win 1).blk t).view.read (Elt Ideal) G1) (((cfg0.win 8).blk t).view.read (Elt Ideal) G8) (((cfg0.win 2).blk t).view.read (Elt Ideal) G2) (((cfg0.win 4).blk t).view.read (Elt Ideal) G4) (((cfg0.win 5).blk t).view.read (Elt Ideal) G5) (((cfg0.win 6).blk t).view.read (Elt Ideal) G6)) (((cfg0.win 7).blk t).view.read (Elt Ideal) G7) (ix2 y k)
    = headArr G0 G2 G1 G3 G4 G8 G5 G6 G7 (((cfg0.win 10).blk t).view.emb (ix2 y k))
  refine (pay1_pay3_apply (((cfg0.win 0).blk t).view.read (Elt Ideal) G0) (((cfg0.win 3).blk t).view.read (Elt Ideal) G3) (((cfg0.win 1).blk t).view.read (Elt Ideal) G1) (((cfg0.win 8).blk t).view.read (Elt Ideal) G8) (((cfg0.win 2).blk t).view.read (Elt Ideal) G2) (((cfg0.win 4).blk t).view.read (Elt Ideal) G4) (((cfg0.win 5).blk t).view.read (Elt Ideal) G5) (((cfg0.win 6).blk t).view.read (Elt Ideal) G6) (((cfg0.win 7).blk t).view.read (Elt Ideal) G7) y k).trans ?_
  refine Eq.trans (b := rowHead (rowHidden G0 G2 G1 G3 G4 G8 G5) G6 G7 (tileRow t y) k) ?_ ?_
  · unfold rowHead
    refine congrArg₂ (· + ·) (Finset.sum_congr rfl fun k' _ => ?_) (read7 G7 t k)
    rw [tile_hidden G0 G2 G1 G3 G4 G5 G8 t y k', read6 G6 t k' k]
  · change _ = rowHead (rowHidden G0 G2 G1 G3 G4 G8 G5) G6 G7 ⟨_, _⟩ ⟨_, _⟩
    refine congrArg₂ (rowHead (rowHidden G0 G2 G1 G3 G4 G8 G5) G6 G7) (Fin.ext ?_) (Fin.ext ?_)
    · show 1000 * t.val + y.val = win0_10.index t (0 : Fin 2) * 1000 + 1 * y.val; omega
    · show k.val = win0_10.index t (1 : Fin 2) * 128 + 1 * k.val; omega

end Generic

/-! ## The tiles cover the arrays -/

/-- An index of the first result array is in point t's block iff each coordinate is in the block's range. -/
theorem mem_blk9 (t : Fin cfg0.N) (i : S25000x256.Idx) :
    i ∈ ((cfg0.win 9).blk t).view.set ↔ ∀ a : Fin 2, win0_9.index t a * S1000x256.size a ≤ (i a).val
      ∧ (i a).val < win0_9.index t a * S1000x256.size a + S1000x256.size a := by
  show i ∈ ((View.whole main_v51_0).slice (win0_9.rect t)).set ↔ _
  rw [View.set_slice_whole, Rect.mem_set_unit]
  exact Iff.rfl

theorem mem_blk10 (t : Fin cfg0.N) (i : S25000x128.Idx) :
    i ∈ ((cfg0.win 10).blk t).view.set ↔ ∀ a : Fin 2, win0_10.index t a * S1000x128.size a ≤ (i a).val
      ∧ (i a).val < win0_10.index t a * S1000x128.size a + S1000x128.size a := by
  show i ∈ ((View.whole main_v51_1).slice (win0_10.rect t)).set ↔ _
  rw [View.set_slice_whole, Rect.mem_set_unit]
  exact Iff.rfl

/-- Packed row R lies in the tile of point R / 1000. -/
theorem cover9 (i : S25000x256.Idx) :
    ∃ t : Fin cfg0.N, (cfg0.win 9).flush t = true ∧ i ∈ ((cfg0.win 9).blk t).view.set := by
  have hi0 : (i 0).val < 25000 := (i 0).isLt
  have hi1 : (i 1).val < 256 := (i 1).isLt
  have hN : cfg0.N = 25 := N_0
  obtain ⟨t, ht⟩ : ∃ t : Fin cfg0.N, t.val = (i 0).val / 1000 := ⟨⟨(i 0).val / 1000, by rw [hN]; omega⟩, rfl⟩
  obtain ⟨-, -, -, -, -, -, e0, e1, -⟩ := idx_rows t
  refine ⟨t, flush0_9 t, ?_⟩
  rw [mem_blk9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 256 ≤ (i 1).val ∧ (i 1).val < win0_9.index t (1 : Fin 2) * 256 + 256; omega

theorem cover10 (i : S25000x128.Idx) :
    ∃ t : Fin cfg0.N, (cfg0.win 10).flush t = true ∧ i ∈ ((cfg0.win 10).blk t).view.set := by
  have hi0 : (i 0).val < 25000 := (i 0).isLt
  have hi1 : (i 1).val < 128 := (i 1).isLt
  have hN : cfg0.N = 25 := N_0
  obtain ⟨t, ht⟩ : ∃ t : Fin cfg0.N, t.val = (i 0).val / 1000 := ⟨⟨(i 0).val / 1000, by rw [hN]; omega⟩, rfl⟩
  obtain ⟨-, -, -, -, -, -, -, -, e0, e1⟩ := idx_rows t
  refine ⟨t, flush0_10 t, ?_⟩
  rw [mem_blk10]
  intro a
  match a with
  | ⟨0, _⟩ => show win0_10.index t (0 : Fin 2) * 1000 ≤ (i 0).val ∧ (i 0).val < win0_10.index t (0 : Fin 2) * 1000 + 1000; omega
  | ⟨1, _⟩ => show win0_10.index t (1 : Fin 2) * 128 ≤ (i 1).val ∧ (i 1).val < win0_10.index t (1 : Fin 2) * 128 + 128; omega

/-! ## The two result arrays after the run -/

/-- What point t writes back to the first result is block t of hiddenArr of the operand arrays as the region finds
    them. -/
theorem flushed9_eq (c : Dev nD) (t : Fin cfg0.N) :
    (dats m 0 c).flushed 9 t = ((cfg0.win 9).blk t).view.read (Elt Ideal)
      (hiddenArr (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 8)) (V m c (Pipeline.arrRef spec0 5))) := by
  show (cfg0.win 9).cut (grid0.coords t) ((dats m 0 c).after 9 t) = _
  rw [after0_9]
  unfold iblk
  exact flush9 (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) t

theorem flushed10_eq (c : Dev nD) (t : Fin cfg0.N) :
    (dats m 0 c).flushed 10 t = ((cfg0.win 10).blk t).view.read (Elt Ideal)
      (headArr (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 8)) (V m c (Pipeline.arrRef spec0 5)) (V m c (Pipeline.arrRef spec0 6)) (V m c (Pipeline.arrRef spec0 7))) := by
  show (cfg0.win 10).cut (grid0.coords t) ((dats m 0 c).after 10 t) = _
  rw [after0_10]
  unfold iblk
  exact flush10 (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) t

/-- THE FIRST RESULT ARRAY after the run: hiddenArr of the operand arrays. -/
theorem final9 (c : Dev nD) : (dats m 0 c).arrAt 9 cfg0.N
    = hiddenArr (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 8)) (V m c (Pipeline.arrRef spec0 5)) :=
  (dats m 0 c).arrAt_eq_of_cover 9 _ (fun t _ => flushed9_eq m c t) cover9

/-- THE SECOND RESULT ARRAY after the run: headArr of the operand arrays. -/
theorem final10 (c : Dev nD) : (dats m 0 c).arrAt 10 cfg0.N
    = headArr (V m c (Pipeline.arrRef spec0 0)) (V m c (Pipeline.arrRef spec0 2)) (V m c (Pipeline.arrRef spec0 1)) (V m c (Pipeline.arrRef spec0 3)) (V m c (Pipeline.arrRef spec0 4)) (V m c (Pipeline.arrRef spec0 8)) (V m c (Pipeline.arrRef spec0 5)) (V m c (Pipeline.arrRef spec0 6)) (V m c (Pipeline.arrRef spec0 7)) :=
  (dats m 0 c).arrAt_eq_of_cover 10 _ (fun t _ => flushed10_eq m c t) cover10

end Cert.KernelIdeal.Blocks

end
-- ==== Proof.KernelTerms.lean ====
/-
  The operand arrays the host prepares for the fused kernel, each as a named function of @main's arguments.

  From the edge list: the wrapped source column and the destination column; the gathered messages with a column of
  ones appended; their row scatter-add into a zero [100000, 65] array (aggDeg: 64 columns of message sums, one column
  counting the edges into a node); the first 64 columns (aggS), the last (degS), the reciprocal of the count clamped
  at one (degInv). Packed four nodes to a row: agg4, u4 [25000, 256], degPk [25000, 4]. From the parameters: the 4 × 4
  identity pattern eye; its Kronecker products with W, B (256 × 256), with Wp (256 × 128) and with a row of 64 ones
  (e4, 4 × 256); the biases tiled four times as rows b4 (1 × 256), bp4 (1 × 128).
-/
import proofs.«161085_j73383811220028_2_alg».proof.Proof.Gen.KernelIdeal

noncomputable section

namespace Cert.KernelIdeal.Terms

open Cert.KernelIdeal Cert.KernelIdeal.Gen Idealize.ShloMosaic Idealize.ShloMosaic.TcCoe

variable {F : FTy → Type} [FloatOps F]

/-- Row 0 of the edge list (the sources), flat. -/
def edgeRow0 (x2 : (⟨S2x1600000, .i32⟩ : BufTy).Contents (Elt F)) : (⟨S1600000, .i32⟩ : BufTy).Contents (Elt F) :=
  shapeCast _ (extractStridedSlice S1x1600000 ![0, 0] x2 slices_S2x1600000_S1x1600000_0_0) shapeCasts_S1x1600000_S1600000

/-- Row 1 of the edge list (the destinations), flat. -/
def edgeRow1 (x2 : (⟨S2x1600000, .i32⟩ : BufTy).Contents (Elt F)) : (⟨S1600000, .i32⟩ : BufTy).Contents (Elt F) :=
  shapeCast _ (extractStridedSlice S1x1600000 ![1, 0] x2 slices_S2x1600000_S1x1600000_1_0) shapeCasts_S1x1600000_S1600000

/-- The sources, a negative one wrapped by the node count, as an index column. -/
def srcCol (x2 : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow0 (F := F) x2) (broadcastInDim S1600000 ![] bcast_S_S1600000 (constantI S_ 32 0#32)))
      (addi (edgeRow0 (F := F) x2) (broadcastInDim S1600000 ![] bcast_S_S1600000 (constantI S_ 32 100000#32)))
      (edgeRow0 (F := F) x2))

/-- The destinations as an index column. -/
def dstCol (x2 : (⟨S2x1600000, .i32⟩ : BufTy).Contents (Elt F)) : (⟨S1600000x1, .i32⟩ : BufTy).Contents (Elt F) :=
  broadcastInDim S1600000x1 ![0] bcast_S1600000_S1600000x1_0 (edgeRow1 (F := F) x2)

/-- One message per edge: the source node's row of x. -/
def msgs (x0 : (⟨S100000x64, .f32⟩ : BufTy).Contents (Elt F)) (x2 : (⟨S2x1600000, .i32⟩ : BufTy).Contents (Elt F)) :
    (⟨S1600000x64, .f32⟩ : BufTy).Contents (Elt F) :=
  Host.gather gather_S100000x64_S1600000x1_S1600000x64_1_0_n_n_0_1_164 x0 (srcCol (F := F) x2)

/-- The column of ones appended to the messages. -/
def onesCol : (⟨S1600000x1, .f32⟩ : BufTy).Contents (Elt F) :=
  broadcastInDim S1600000x1 ![] bcast_S_S1600000x1 (constant S_ .f32 0x3F800000#32)

/-- The messages with the column of ones appended. -/
def msgsAug (x0 : (⟨S100000x64, .f32⟩ : BufTy).Contents (Elt F)) (x2 : (⟨S2x1600000, .i32⟩ : BufTy).Contents (Elt F)) :
    (⟨S1600000x65, .f32⟩ : BufTy).Contents (Elt F) :=
  concatenate S1600000x65 1 [⟨S1600000x64, msgs (F := F) x0 x2⟩, ⟨S1600000x1, onesCol (F := F)⟩]
    concatenates_S1600000x64_S1600000x1_S1600000x65_d1

/-- The zero array the scatter accumulates into. -/
def zeros65 : (⟨S100000x65, .f32⟩ : BufTy).Contents (Elt F) :=
  broadcastInDim S100000x65 ![] bcast_S_S100000x65 (constant S_ .f32 0x00000000#32)

/-- Message sums (columns 0–63) and edge counts (column 64) per destination node. -/
def aggDeg (x0 : (⟨S100000x64, .f32⟩ : BufTy).Contents (Elt F)) (x2 : (⟨S2x1600000, .i32⟩ : BufTy).Contents (Elt F)) :
    (⟨S100000x65, .f32⟩ : BufTy).Contents (Elt F) :=
  Host.scatterAdd scatter_S100000x65_S1600000x1_S1600000x65_1_0_0_1 (zeros65 (F := F)) (dstCol (F := F) x2) (msgsAug (F := F) x0 x2)

/-- The message sums. -/
def aggS (x0 : (⟨S100000x64, .f32⟩ : BufTy).Contents (Elt F)) (x2 : (⟨S2x1600000, .i32⟩ : BufTy).Contents (Elt F)) :
    (⟨S100000x64, .f32⟩ : BufTy).Contents (Elt F) :=
  extractStridedSlice S100000x64 ![0, 0] (aggDeg (F := F) x0 x2) slices_S100000x65_S100000x64_0_0

/-- The edge counts. -/
def degS (x0 : (⟨S100000x64, .f32⟩ : BufTy).Contents (Elt F)) (x2 : (⟨S2x1600000, .i32⟩ : BufTy).Contents (Elt F)) :
    (⟨S100000, .f32⟩ : BufTy).Contents (Elt F) :=
  shapeCast _ (extractStridedSlice S100000x1 ![0, 64] (aggDeg (F := F) x0 x2) slices_S100000x65_S100000x1_0_64) shapeCasts_S100000x1_S100000

/-- A flat array of ones, one per node. -/
def onesN : (⟨S100000, .f32⟩ : BufTy).Contents (Elt F) :=
  broadcastInDim S100000 ![] bcast_S_S100000 (constant S_ .f32 0x3F800000#32)

/-- One over the edge count clamped below at one. -/
def degInv (x0 : (⟨S100000x64, .f32⟩ : BufTy).Contents (Elt F)) (x2 : (⟨S2x1600000, .i32⟩ : BufTy).Contents (Elt F)) :
    (⟨S100000, .f32⟩ : BufTy).Contents (Elt F) :=
  Host.divf (onesN (F := F)) (maximumf (degS (F := F) x0 x2) (onesN (F := F)))

/-- The message sums, four nodes to a row. -/
def agg4 (x0 : (⟨S100000x64, .f32⟩ : BufTy).Contents (Elt F)) (x2 : (⟨S2x1600000, .i32⟩ : BufTy).Contents (Elt F)) :
    (⟨S25000x256, .f32⟩ : BufTy).Contents (Elt F) :=
  shapeCast _ (aggS (F := F) x0 x2) shapeCasts_S100000x64_S25000x256

/-- The node features, four nodes to a row. -/
def u4 (x1 : (⟨S100000x64, .f32⟩ : BufTy).Contents (Elt F)) : (⟨S25000x256, .f32⟩ : BufTy).Contents (Elt F) :=
  shapeCast _ x1 shapeCasts_S100000x64_S25000x256

/-- The reciprocal degrees, four nodes to a row. -/
def degPk (x0 : (⟨S100000x64, .f32⟩ : BufTy).Contents (Elt F)) (x2 : (⟨S2x1600000, .i32⟩ : BufTy).Contents (Elt F)) :
    (⟨S25000x4, .f32⟩ : BufTy).Contents (Elt F) :=
  shapeCast _ (degInv (F := F) x0 x2) shapeCasts_S100000_S25000x4

/-- The 4 × 4 identity pattern: one where the row number equals the column number, else zero. -/
def eye : (⟨S4x4, .f32⟩ : BufTy).Contents (Elt F) :=
  uitofp .f32 (cmpi .eq (addi (iotaInDim S4x4 32 0) (broadcastInDim S4x4 ![] bcast_S_S4x4 (constantI S_ 32 0#32))) (iotaInDim S4x4 32 1))

/-- The Kronecker product of a 4 × 4 matrix with a 64 × 64 one, as a 256 × 256 matrix. -/
def kron64 (e : (⟨S4x4, .f32⟩ : BufTy).Contents (Elt F)) (w : (⟨S64x64, .f32⟩ : BufTy).Contents (Elt F)) :
    (⟨S256x256, .f32⟩ : BufTy).Contents (Elt F) :=
  shapeCast _ (mulf
      (broadcastInDim S4x64x4x64 ![0, 1, 2, 3] bcast_S4x1x4x1_S4x64x4x64_0_1_2_3 (broadcastInDim S4x1x4x1 ![0, 2] bcast_S4x4_S4x1x4x1_0_2 e))
      (broadcastInDim S4x64x4x64 ![0, 1, 2, 3] bcast_S1x64x1x64_S4x64x4x64_0_1_2_3 (broadcastInDim S1x64x1x64 ![1, 3] bcast_S64x64_S1x64x1x64_1_3 w)))
    shapeCasts_S4x64x4x64_S256x256

/-- The Kronecker product of a 4 × 4 matrix with a 64 × 32 one, as a 256 × 128 matrix. -/
def kron32 (e : (⟨S4x4, .f32⟩ : BufTy).Contents (Elt F)) (w : (⟨S64x32, .f32⟩ : BufTy).Contents (Elt F)) :
    (⟨S256x128, .f32⟩ : BufTy).Contents (Elt F) :=
  shapeCast _ (mulf
      (broadcastInDim S4x64x4x32 ![0, 1, 2, 3] bcast_S4x1x4x1_S4x64x4x32_0_1_2_3 (broadcastInDim S4x1x4x1 ![0, 2] bcast_S4x4_S4x1x4x1_0_2 e))
      (broadcastInDim S4x64x4x32 ![0, 1, 2, 3] bcast_S1x64x1x32_S4x64x4x32_0_1_2_3 (broadcastInDim S1x64x1x32 ![1, 3] bcast_S64x32_S1x64x1x32_1_3 w)))
    shapeCasts_S4x64x4x32_S256x128

/-- The Kronecker product of a 4 × 4 matrix with a 1 × 64 row, as a 4 × 256 matrix. -/
def kronRow (e : (⟨S4x4, .f32⟩ : BufTy).Contents (Elt F)) (w : (⟨S1x64, .f32⟩ : BufTy).Contents (Elt F)) :
    (⟨S4x256, .f32⟩ : BufTy).Contents (Elt F) :=
  shapeCast _ (mulf
      (broadcastInDim S4x1x4x64 ![0, 1, 2, 3] bcast_S4x1x4x1_S4x1x4x64_0_1_2_3 (broadcastInDim S4x1x4x1 ![0, 2] bcast_S4x4_S4x1x4x1_0_2 e))
      (broadcastInDim S4x1x4x64 ![0, 1, 2, 3] bcast_S1x1x1x64_S4x1x4x64_0_1_2_3 (broadcastInDim S1x1x1x64 ![1, 3] bcast_S1x64_S1x1x1x64_1_3 w)))
    shapeCasts_S4x1x4x64_S4x256

/-- A row of 64 ones. -/
def onesRow : (⟨S1x64, .f32⟩ : BufTy).Contents (Elt F) :=
  broadcastInDim S1x64 ![] bcast_S_S1x64 (constant S_ .f32 0x3F800000#32)

/-- The matrix that spreads a packed row's four reciprocal degrees over its four blocks of 64 lanes. -/
def e4 : (⟨S4x256, .f32⟩ : BufTy).Contents (Elt F) := kronRow (eye (F := F)) (onesRow (F := F))

/-- The bias repeated four times, as a row. -/
def b4 (x5 : (⟨S64, .f32⟩ : BufTy).Contents (Elt F)) : (⟨S1x256, .f32⟩ : BufTy).Contents (Elt F) :=
  broadcastInDim S1x256 ![1] bcast_S256_S1x256_1
    (shapeCast _ (broadcastInDim S4x64 ![0, 1] bcast_S1x64_S4x64_0_1 (shapeCast _ x5 shapeCasts_S64_S1x64)) shapeCasts_S4x64_S256)

/-- The head's bias repeated four times, as a row. -/
def bp4 (x7 : (⟨S32, .f32⟩ : BufTy).Contents (Elt F)) : (⟨S1x128, .f32⟩ : BufTy).Contents (Elt F) :=
  broadcastInDim S1x128 ![1] bcast_S128_S1x128_1
    (shapeCast _ (broadcastInDim S4x32 ![0, 1] bcast_S1x32_S4x32_0_1 (shapeCast _ x7 shapeCasts_S32_S1x32)) shapeCasts_S4x32_S128)

end Cert.KernelIdeal.Terms

end
-- ==== Proof.TermReads.lean ====
/-
  What each array the host prepares for the fused kernel holds at an index, on the extended reals.

  Packing four consecutive rows of a [100000, 64] array into one row of a [25000, 256] array is row-major: packed
  row r, lane 64·q + k is row 4·r + q, entry k. The Kronecker product of a 4 × 4 matrix e with a matrix w has entry
  e(q,p) · w(k,h) at (64·q + k, 64·p + h); the 4 × 4 pattern built from two iotas is the identity matrix; a bias row
  tiled four times repeats the bias at every block of lanes. The converse reads unpack a packed result row by row.
-/
import proofs.«161085_j73383811220028_2_alg».proof.Proof.KernelTerms
import proofs.«161085_j73383811220028_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TermReads

open Idealize.ShloMosaic Idealize.ShloMosaic.ValueIdx Idealize.ShloMosaic.TcCoe Cert.KernelIdeal Cert.KernelIdeal.Gen

/-- The four-axis array that repeats a 4 × 4 matrix along axes 1 and 3 holds e(q,p) at (q, k, p, h). -/
theorem eyeBcast64_apply (e : (⟨S4x4, .f32⟩ : BufTy).Contents (Elt Ideal)) (q p : Fin 4) (k h : Fin 64) :
    broadcastInDim S4x64x4x64 ![0, 1, 2, 3] bcast_S4x1x4x1_S4x64x4x64_0_1_2_3
        (broadcastInDim S4x1x4x1 ![0, 2] bcast_S4x4_S4x1x4x1_0_2 e) (ix4 q k p h) = e (ix2 q p) := by
  rw [broadcastInDim_apply _ bcast_S4x1x4x1_S4x64x4x64_0_1_2_3 _ (ix4 q k p h) (ix4 q (0 : Fin 1) p (0 : Fin 1))
    (fun a => match a with
      | ⟨0, _⟩ => by show q.val = if (4 : Nat) = 1 then 0 else q.val; rw [if_neg (by decide)]
      | ⟨1, _⟩ => by show 0 = if (1 : Nat) = 1 then 0 else k.val; rw [if_pos rfl]
      | ⟨2, _⟩ => by show p.val = if (4 : Nat) = 1 then 0 else p.val; rw [if_neg (by decide)]
      | ⟨3, _⟩ => by show 0 = if (1 : Nat) = 1 then 0 else h.val; rw [if_pos rfl])]
  exact broadcastInDim_apply _ bcast_S4x4_S4x1x4x1_0_2 e (ix4 q (0 : Fin 1) p (0 : Fin 1)) (ix2 q p)
    (fun a => match a with
      | ⟨0, _⟩ => by show q.val = if (4 : Nat) = 1 then 0 else q.val; rw [if_neg (by decide)]
      | ⟨1, _⟩ => by show p.val = if (4 : Nat) = 1 then 0 else p.val; rw [if_neg (by decide)])

/-- The four-axis array that repeats a 64 × 64 matrix along axes 0 and 2 holds w(k,h) at (q, k, p, h). -/
theorem wBcast64_apply (w : (⟨S64x64, .f32⟩ : BufTy).Contents (Elt Ideal)) (q p : Fin 4) (k h : Fin 64) :
    broadcastInDim S4x64x4x64 ![0, 1, 2, 3] bcast_S1x64x1x64_S4x64x4x64_0_1_2_3
        (broadcastInDim S1x64x1x64 ![1, 3] bcast_S64x64_S1x64x1x64_1_3 w) (ix4 q k p h) = w (ix2 k h) := by
  rw [broadcastInDim_apply _ bcast_S1x64x1x64_S4x64x4x64_0_1_2_3 _ (ix4 q k p h) (ix4 (0 : Fin 1) k (0 : Fin 1) h)
    (fun a => match a with
      | ⟨0, _⟩ => by show 0 = if (1 : Nat) = 1 then 0 else q.val; rw [if_pos rfl]
      | ⟨1, _⟩ => by show k.val = if (64 : Nat) = 1 then 0 else k.val; rw [if_neg (by decide)]
      | ⟨2, _⟩ => by show 0 = if (1 : Nat) = 1 then 0 else p.val; rw [if_pos rfl]
      | ⟨3, _⟩ => by show h.val = if (64 : Nat) = 1 then 0 else h.val; rw [if_neg (by decide)])]
  exact broadcastInDim_apply _ bcast_S64x64_S1x64x1x64_1_3 w (ix4 (0 : Fin 1) k (0 : Fin 1) h) (ix2 k h)
    (fun a => match a with
      | ⟨0, _⟩ => by show k.val = if (64 : Nat) = 1 then 0 else k.val; rw [if_neg (by decide)]
      | ⟨1, _⟩ => by show h.val = if (64 : Nat) = 1 then 0 else h.val; rw [if_neg (by decide)])

/-- Entry (64·q + k, 64·p + h) of the Kronecker product of a 4 × 4 matrix e with a 64 × 64 matrix w is e(q,p) · w(k,h). -/
theorem kron64_apply (e : (⟨S4x4, .f32⟩ : BufTy).Contents (Elt Ideal)) (w : (⟨S64x64, .f32⟩ : BufTy).Contents (Elt Ideal))
    (q p : Fin 4) (k h : Fin 64) :
    Terms.kron64 (F := Ideal) e w
        (ix2 (⟨64 * q.val + k.val, by have := q.isLt; have := k.isLt; omega⟩ : Fin 256)
             (⟨64 * p.val + h.val, by have := p.isLt; have := h.isLt; omega⟩ : Fin 256))
      = e (ix2 q p) * w (ix2 k h) := by
  unfold Terms.kron64
  rw [shapeCast_apply _ shapeCasts_S4x64x4x64_S256x256 _ (ix4 q k p h)
    (by rewrite [Shape.rowMajor_val_four, Shape.rowMajor_val_two]
        have := q.isLt; have := k.isLt; have := p.isLt; have := h.isLt
        show ((q.val * 64 + k.val) * 4 + p.val) * 64 + h.val = (64 * q.val + k.val) * 256 + (64 * p.val + h.val)
        omega)]
  show _ * _ = _
  rw [eyeBcast64_apply e q p k h, wBcast64_apply w q p k h]

/-- Packing four rows to one is row-major: packed row r, lane 64·q + k of any [100000, 64] array is its row 4·r + q, entry k. -/
theorem pack256_apply {α : Type} (y : S100000x64.Idx → α) (r : Fin 25000) (q : Fin 4) (k : Fin 64) :
    shapeCast S25000x256 y shapeCasts_S100000x64_S25000x256
        (ix2 r (⟨64 * q.val + k.val, by have := q.isLt; have := k.isLt; omega⟩ : Fin 256))
      = y (ix2 (⟨4 * r.val + q.val, by have := r.isLt; have := q.isLt; omega⟩ : Fin 100000) k) :=
  shapeCast_apply y shapeCasts_S100000x64_S25000x256 _ _
    (by rewrite [Shape.rowMajor_val_two, Shape.rowMajor_val_two]
        have := r.isLt; have := q.isLt; have := k.isLt
        show (4 * r.val + q.val) * 64 + k.val = r.val * 256 + (64 * q.val + k.val)
        omega)

/-- The packed message sums: packed row r, lane 64·q + k is node 4·r + q's sum, entry k. -/
theorem agg4_apply (x0 : (⟨S100000x64, .f32⟩ : BufTy).Contents (Elt Ideal)) (x2 : (⟨S2x1600000, .i32⟩ : BufTy).Contents (Elt Ideal))
    (r : Fin 25000) (q : Fin 4) (k : Fin 64) :
    Terms.agg4 (F := Ideal) x0 x2 (ix2 r (⟨64 * q.val + k.val, by have := q.isLt; have := k.isLt; omega⟩ : Fin 256))
      = Terms.aggS (F := Ideal) x0 x2 (ix2 (⟨4 * r.val + q.val, by have := r.isLt; have := q.isLt; omega⟩ : Fin 100000) k) := by
  unfold Terms.agg4
  exact pack256_apply _ r q k

/-- The packed node features: packed row r, lane 64·q + k is node 4·r + q's feature k. -/
theorem u4_apply (x1 : (⟨S100000x64, .f32⟩ : BufTy).Contents (Elt Ideal)) (r : Fin 25000) (q : Fin 4) (k : Fin 64) :
    Terms.u4 (F := Ideal) x1 (ix2 r (⟨64 * q.val + k.val, by have := q.isLt; have := k.isLt; omega⟩ : Fin 256))
      = x1 (ix2 (⟨4 * r.val + q.val, by have := r.isLt; have := q.isLt; omega⟩ : Fin 100000) k) := by
  unfold Terms.u4
  exact pack256_apply _ r q k

/-- The flat array of ones holds the word of 1.0 at every node. -/
theorem onesN_apply (n : Fin 100000) : Terms.onesN (F := Ideal) (ix1 n) = Cert.Layer.oneW := by
  unfold Terms.onesN
  exact broadcastInDim_apply _ bcast_S_S100000 _ (ix1 n) ix0 (fun a => a.elim0)

/-- A quotient of an array by the pointwise larger of a second array and the first, read at an index. -/
theorem divf_max_apply {s : Shape} (o d : FVec Ideal s .f32) (i : s.Idx) :
    Host.divf (F := Ideal) o (maximumf d o) i = Ideal.div (o i) (max (d i) (o i)) := rfl

/-- The reciprocal degree of a node: the ones array's entry over the larger of the edge count and the ones array's entry. -/
theorem degInv_apply (x0 : (⟨S100000x64, .f32⟩ : BufTy).Contents (Elt Ideal)) (x2 : (⟨S2x1600000, .i32⟩ : BufTy).Contents (Elt Ideal))
    (i : S100000.Idx) :
    Terms.degInv (F := Ideal) x0 x2 i
      = Ideal.div (Terms.onesN (F := Ideal) i) (max (Terms.degS (F := Ideal) x0 x2 i : EReal) (Terms.onesN (F := Ideal) i)) := by
  unfold Terms.degInv
  exact divf_max_apply (Terms.onesN (F := Ideal)) (Terms.degS (F := Ideal) x0 x2) i

/-- The packed reciprocal degrees: packed row r, entry q is one over node 4·r + q's edge count clamped below at one. -/
theorem degPk_apply (x0 : (⟨S100000x64, .f32⟩ : BufTy).Contents (Elt Ideal)) (x2 : (⟨S2x1600000, .i32⟩ : BufTy).Contents (Elt Ideal))
    (r : Fin 25000) (q : Fin 4) :
    Terms.degPk (F := Ideal) x0 x2 (ix2 r q)
      = Ideal.div Cert.Layer.oneW
          (max (Terms.degS (F := Ideal) x0 x2 (ix1 (⟨4 * r.val + q.val, by have := r.isLt; have := q.isLt; omega⟩ : Fin 100000)))
            Cert.Layer.oneW) := by
  unfold Terms.degPk
  rw [shapeCast_apply _ shapeCasts_S100000_S25000x4 (ix2 r q)
    (ix1 (⟨4 * r.val + q.val, by have := r.isLt; have := q.isLt; omega⟩ : Fin 100000))
    (by rewrite [Shape.rowMajor_val_one, Shape.rowMajor_val_two]
        have := r.isLt; have := q.isLt
        show 4 * r.val + q.val = r.val * 4 + q.val
        omega)]
  rw [degInv_apply, onesN_apply]

/-- On 32-bit words, "row number plus zero equals column number" holds exactly when the two numbers below 4 are equal. -/
theorem eye_word (q p : Fin 4) :
    IntOp.cmpi .eq (IntOp.addi (BitVec.ofNat 32 q.val) 0#32) (BitVec.ofNat 32 p.val) = if q = p then 1#1 else 0#1 := by
  revert q p; decide

/-- The 4 × 4 pattern built from two iotas is the identity matrix: one on the diagonal, zero off it. -/
theorem eye_apply (q p : Fin 4) : Terms.eye (F := Ideal) (ix2 q p) = if q = p then (1 : EReal) else 0 := by
  have hread : Terms.eye (F := Ideal) (ix2 q p)
      = (((IntOp.cmpi .eq (IntOp.addi (BitVec.ofNat 32 q.val) 0#32) (BitVec.ofNat 32 p.val)).toNat : ℝ) : EReal) := rfl
  rw [hread, eye_word]
  by_cases hqp : q = p
  · rw [if_pos hqp, if_pos hqp]
    show (((1 : ℕ) : ℝ) : EReal) = 1
    rw [Nat.cast_one, EReal.coe_one]
  · rw [if_neg hqp, if_neg hqp]
    show (((0 : ℕ) : ℝ) : EReal) = 0
    rw [Nat.cast_zero, EReal.coe_zero]

/-- The row of 64 ones holds the word of 1.0 at every lane. -/
theorem onesRow_apply (h : Fin 64) : Terms.onesRow (F := Ideal) (ix2 (0 : Fin 1) h) = Cert.Layer.oneW := by
  unfold Terms.onesRow
  exact broadcastInDim_apply _ bcast_S_S1x64 _ (ix2 (0 : Fin 1) h) ix0 (fun a => a.elim0)

/-- The bias tiled four times: lane 64·p + h of the row holds the bias at h. -/
theorem b4_apply (x5 : (⟨S64, .f32⟩ : BufTy).Contents (Elt Ideal)) (p : Fin 4) (h : Fin 64) :
    Terms.b4 (F := Ideal) x5 (ix2 (0 : Fin 1) (⟨64 * p.val + h.val, by have := p.isLt; have := h.isLt; omega⟩ : Fin 256))
      = x5 (ix1 h) := by
  unfold Terms.b4
  rw [broadcastInDim_apply _ bcast_S256_S1x256_1 _ (ix2 (0 : Fin 1) (⟨64 * p.val + h.val, by have := p.isLt; have := h.isLt; omega⟩ : Fin 256))
    (ix1 (⟨64 * p.val + h.val, by have := p.isLt; have := h.isLt; omega⟩ : Fin 256))
    (fun a => match a with
      | ⟨0, _⟩ => by show 64 * p.val + h.val = if (256 : Nat) = 1 then 0 else 64 * p.val + h.val; rw [if_neg (by decide)])]
  rw [shapeCast_apply _ shapeCasts_S4x64_S256 (ix1 (⟨64 * p.val + h.val, by have := p.isLt; have := h.isLt; omega⟩ : Fin 256)) (ix2 p h)
    (by rewrite [Shape.rowMajor_val_two, Shape.rowMajor_val_one]
        show p.val * 64 + h.val = 64 * p.val + h.val
        omega)]
  rw [broadcastInDim_apply _ bcast_S1x64_S4x64_0_1 _ (ix2 p h) (ix2 (0 : Fin 1) h)
    (fun a => match a with
      | ⟨0, _⟩ => by show 0 = if (1 : Nat) = 1 then 0 else p.val; rw [if_pos rfl]
      | ⟨1, _⟩ => by show h.val = if (64 : Nat) = 1 then 0 else h.val; rw [if_neg (by decide)])]
  exact shapeCast_apply x5 shapeCasts_S64_S1x64 (ix2 (0 : Fin 1) h) (ix1 h)
    (by rewrite [Shape.rowMajor_val_one, Shape.rowMajor_val_two]
        show h.val = 0 * 64 + h.val
        omega)

/-- The head's bias tiled four times: lane 32·p + j of the row holds the bias at j. -/
theorem bp4_apply (x7 : (⟨S32, .f32⟩ : BufTy).Contents (Elt Ideal)) (p : Fin 4) (j : Fin 32) :
    Terms.bp4 (F := Ideal) x7 (ix2 (0 : Fin 1) (⟨32 * p.val + j.val, by have := p.isLt; have := j.isLt; omega⟩ : Fin 128))
      = x7 (ix1 j) := by
  unfold Terms.bp4
  rw [broadcastInDim_apply _ bcast_S128_S1x128_1 _ (ix2 (0 : Fin 1) (⟨32 * p.val + j.val, by have := p.isLt; have := j.isLt; omega⟩ : Fin 128))
    (ix1 (⟨32 * p.val + j.val, by have := p.isLt; have := j.isLt; omega⟩ : Fin 128))
    (fun a => match a with
      | ⟨0, _⟩ => by show 32 * p.val + j.val = if (128 : Nat) = 1 then 0 else 32 * p.val + j.val; rw [if_neg (by decide)])]
  rw [shapeCast_apply _ shapeCasts_S4x32_S128 (ix1 (⟨32 * p.val + j.val, by have := p.isLt; have := j.isLt; omega⟩ : Fin 128)) (ix2 p j)
    (by rewrite [Shape.rowMajor_val_two, Shape.rowMajor_val_one]
        show p.val * 32 + j.val = 32 * p.val + j.val
        omega)]
  rw [broadcastInDim_apply _ bcast_S1x32_S4x32_0_1 _ (ix2 p j) (ix2 (0 : Fin 1) j)
    (fun a => match a with
      | ⟨0, _⟩ => by show 0 = if (1 : Nat) = 1 then 0 else p.val; rw [if_pos rfl]
      | ⟨1, _⟩ => by show j.val = if (32 : Nat) = 1 then 0 else j.val; rw [if_neg (by decide)])]
  exact shapeCast_apply x7 shapeCasts_S32_S1x32 (ix2 (0 : Fin 1) j) (ix1 j)
    (by rewrite [Shape.rowMajor_val_one, Shape.rowMajor_val_two]
        show j.val = 0 * 32 + j.val
        omega)

/-- The four-axis array [4, 1, 4, 64] that repeats a 4 × 4 matrix along its last axis holds e(q,p) at (q, 0, p, h). -/
theorem eyeBcastRow_apply (e : (⟨S4x4, .f32⟩ : BufTy).Contents (Elt Ideal)) (q p : Fin 4) (h : Fin 64) :
    broadcastInDim S4x1x4x64 ![0, 1, 2, 3] bcast_S4x1x4x1_S4x1x4x64_0_1_2_3
        (broadcastInDim S4x1x4x1 ![0, 2] bcast_S4x4_S4x1x4x1_0_2 e) (ix4 q (0 : Fin 1) p h) = e (ix2 q p) := by
  rw [broadcastInDim_apply _ bcast_S4x1x4x1_S4x1x4x64_0_1_2_3 _ (ix4 q (0 : Fin 1) p h) (ix4 q (0 : Fin 1) p (0 : Fin 1))
    (fun a => match a with
      | ⟨0, _⟩ => by show q.val = if (4 : Nat) = 1 then 0 else q.val; rw [if_neg (by decide)]
      | ⟨1, _⟩ => by show 0 = if (1 : Nat) = 1 then 0 else 0; rw [if_pos rfl]
      | ⟨2, _⟩ => by show p.val = if (4 : Nat) = 1 then 0 else p.val; rw [if_neg (by decide)]
      | ⟨3, _⟩ => by show 0 = if (1 : Nat) = 1 then 0 else h.val; rw [if_pos rfl])]
  exact broadcastInDim_apply _ bcast_S4x4_S4x1x4x1_0_2 e (ix4 q (0 : Fin 1) p (0 : Fin 1)) (ix2 q p)
    (fun a => match a with
      | ⟨0, _⟩ => by show q.val = if (4 : Nat) = 1 then 0 else q.val; rw [if_neg (by decide)]
      | ⟨1, _⟩ => by show p.val = if (4 : Nat) = 1 then 0 else p.val; rw [if_neg (by decide)])

/-- The four-axis array that repeats a 1 × 64 row along axes 0 and 2 holds w(0,h) at (q, 0, p, h). -/
theorem wBcastRow_apply (w : (⟨S1x64, .f32⟩ : BufTy).Contents (Elt Ideal)) (q p : Fin 4) (h : Fin 64) :
    broadcastInDim S4x1x4x64 ![0, 1, 2, 3] bcast_S1x1x1x64_S4x1x4x64_0_1_2_3
        (broadcastInDim S1x1x1x64 ![1, 3] bcast_S1x64_S1x1x1x64_1_3 w) (ix4 q (0 : Fin 1) p h) = w (ix2 (0 : Fin 1) h) := by
  rw [broadcastInDim_apply _ bcast_S1x1x1x64_S4x1x4x64_0_1_2_3 _ (ix4 q (0 : Fin 1) p h) (ix4 (0 : Fin 1) (0 : Fin 1) (0 : Fin 1) h)
    (fun a => match a with
      | ⟨0, _⟩ => by show 0 = if (1 : Nat) = 1 then 0 else q.val; rw [if_pos rfl]
      | ⟨1, _⟩ => by show 0 = if (1 : Nat) = 1 then 0 else 0; rw [if_pos rfl]
      | ⟨2, _⟩ => by show 0 = if (1 : Nat) = 1 then 0 else p.val; rw [if_pos rfl]
      | ⟨3, _⟩ => by show h.val = if (64 : Nat) = 1 then 0 else h.val; rw [if_neg (by decide)])]
  exact broadcastInDim_apply _ bcast_S1x64_S1x1x1x64_1_3 w (ix4 (0 : Fin 1) (0 : Fin 1) (0 : Fin 1) h) (ix2 (0 : Fin 1) h)
    (fun a => match a with
      | ⟨0, _⟩ => by show 0 = if (1 : Nat) = 1 then 0 else 0; rw [if_pos rfl]
      | ⟨1, _⟩ => by show h.val = if (64 : Nat) = 1 then 0 else h.val; rw [if_neg (by decide)])

/-- Entry (q, 64·p + h) of the Kronecker product of a 4 × 4 matrix e with a 1 × 64 row w is e(q,p) · w(0,h). -/
theorem kronRow_apply (e : (⟨S4x4, .f32⟩ : BufTy).Contents (Elt Ideal)) (w : (⟨S1x64, .f32⟩ : BufTy).Contents (Elt Ideal))
    (q p : Fin 4) (h : Fin 64) :
    Terms.kronRow (F := Ideal) e w (ix2 q (⟨64 * p.val + h.val, by have := p.isLt; have := h.isLt; omega⟩ : Fin 256))
      = e (ix2 q p) * w (ix2 (0 : Fin 1) h) := by
  unfold Terms.kronRow
  rw [shapeCast_apply _ shapeCasts_S4x1x4x64_S4x256 _ (ix4 q (0 : Fin 1) p h)
    (by rewrite [Shape.rowMajor_val_four, Shape.rowMajor_val_two]
        have := q.isLt; have := p.isLt; have := h.isLt
        show ((q.val * 1 + 0) * 4 + p.val) * 64 + h.val = q.val * 256 + (64 * p.val + h.val)
        omega)]
  show _ * _ = _
  rw [eyeBcastRow_apply e q p h, wBcastRow_apply w q p h]

/-- Unpacking a [25000, 256] array to [100000, 64]: row n, entry h is packed row n / 4, lane 64·(n mod 4) + h. -/
theorem unpack256 {α : Type} (y : S25000x256.Idx → α) (n : Fin 100000) (h : Fin 64) :
    shapeCast S100000x64 y shapeCasts_S25000x256_S100000x64 (ix2 n h)
      = y (ix2 (⟨n.val / 4, by have := n.isLt; omega⟩ : Fin 25000)
               (⟨64 * (n.val % 4) + h.val, by have := h.isLt; omega⟩ : Fin 256)) :=
  shapeCast_apply y shapeCasts_S25000x256_S100000x64 _ _
    (by rewrite [Shape.rowMajor_val_two, Shape.rowMajor_val_two]
        have := n.isLt; have := h.isLt
        show (n.val / 4) * 256 + (64 * (n.val % 4) + h.val) = n.val * 64 + h.val
        omega)

/-- Unpacking a [25000, 128] array to [100000, 32]: row n, entry j is packed row n / 4, lane 32·(n mod 4) + j. -/
theorem unpack128 {α : Type} (y : S25000x128.Idx → α) (n : Fin 100000) (j : Fin 32) :
    shapeCast S100000x32 y shapeCasts_S25000x128_S100000x32 (ix2 n j)
      = y (ix2 (⟨n.val / 4, by have := n.isLt; omega⟩ : Fin 25000)
               (⟨32 * (n.val % 4) + j.val, by have := j.isLt; omega⟩ : Fin 128)) :=
  shapeCast_apply y shapeCasts_S25000x128_S100000x32 _ _
    (by rewrite [Shape.rowMajor_val_two, Shape.rowMajor_val_two]
        have := n.isLt; have := j.isLt
        show (n.val / 4) * 128 + (32 * (n.val % 4) + j.val) = n.val * 32 + j.val
        omega)

/-- The four-axis array [4, 64, 4, 32] that repeats a 4 × 4 matrix along axes 1 and 3 holds e(q,p) at (q, k, p, j). -/
theorem eyeBcast32_apply (e : (⟨S4x4, .f32⟩ : BufTy).Contents (Elt Ideal)) (q p : Fin 4) (k : Fin 64) (j : Fin 32) :
    broadcastInDim S4x64x4x32 ![0, 1, 2, 3] bcast_S4x1x4x1_S4x64x4x32_0_1_2_3
        (broadcastInDim S4x1x4x1 ![0, 2] bcast_S4x4_S4x1x4x1_0_2 e) (ix4 q k p j) = e (ix2 q p) := by
  rw [broadcastInDim_apply _ bcast_S4x1x4x1_S4x64x4x32_0_1_2_3 _ (ix4 q k p j) (ix4 q (0 : Fin 1) p (0 : Fin 1))
    (fun a => match a with
      | ⟨0, _⟩ => by show q.val = if (4 : Nat) = 1 then 0 else q.val; rw [if_neg (by decide)]
      | ⟨1, _⟩ => by show 0 = if (1 : Nat) = 1 then 0 else k.val; rw [if_pos rfl]
      | ⟨2, _⟩ => by show p.val = if (4 : Nat) = 1 then 0 else p.val; rw [if_neg (by decide)]
      | ⟨3, _⟩ => by show 0 = if (1 : Nat) = 1 then 0 else j.val; rw [if_pos rfl])]
  exact broadcastInDim_apply _ bcast_S4x4_S4x1x4x1_0_2 e (ix4 q (0 : Fin 1) p (0 : Fin 1)) (ix2 q p)
    (fun a => match a with
      | ⟨0, _⟩ => by show q.val = if (4 : Nat) = 1 then 0 else q.val; rw [if_neg (by decide)]
      | ⟨1, _⟩ => by show p.val = if (4 : Nat) = 1 then 0 else p.val; rw [if_neg (by decide)])

/-- The four-axis array that repeats a 64 × 32 matrix along axes 0 and 2 holds w(k,j) at (q, k, p, j). -/
theorem wBcast32_apply (w : (⟨S64x32, .f32⟩ : BufTy).Contents (Elt Ideal)) (q p : Fin 4) (k : Fin 64) (j : Fin 32) :
    broadcastInDim S4x64x4x32 ![0, 1, 2, 3] bcast_S1x64x1x32_S4x64x4x32_0_1_2_3
        (broadcastInDim S1x64x1x32 ![1, 3] bcast_S64x32_S1x64x1x32_1_3 w) (ix4 q k p j) = w (ix2 k j) := by
  rw [broadcastInDim_apply _ bcast_S1x64x1x32_S4x64x4x32_0_1_2_3 _ (ix4 q k p j) (ix4 (0 : Fin 1) k (0 : Fin 1) j)
    (fun a => match a with
      | ⟨0, _⟩ => by show 0 = if (1 : Nat) = 1 then 0 else q.val; rw [if_pos rfl]
      | ⟨1, _⟩ => by show k.val = if (64 : Nat) = 1 then 0 else k.val; rw [if_neg (by decide)]
      | ⟨2, _⟩ => by show 0 = if (1 : Nat) = 1 then 0 else p.val; rw [if_pos rfl]
      | ⟨3, _⟩ => by show j.val = if (32 : Nat) = 1 then 0 else j.val; rw [if_neg (by decide)])]
  exact broadcastInDim_apply _ bcast_S64x32_S1x64x1x32_1_3 w (ix4 (0 : Fin 1) k (0 : Fin 1) j) (ix2 k j)
    (fun a => match a with
      | ⟨0, _⟩ => by show k.val = if (64 : Nat) = 1 then 0 else k.val; rw [if_neg (by decide)]
      | ⟨1, _⟩ => by show j.val = if (32 : Nat) = 1 then 0 else j.val; rw [if_neg (by decide)])

/-- Entry (64·q + k, 32·p + j) of the Kronecker product of a 4 × 4 matrix e with a 64 × 32 matrix w is e(q,p) · w(k,j). -/
theorem kron32_apply (e : (⟨S4x4, .f32⟩ : BufTy).Contents (Elt Ideal)) (w : (⟨S64x32, .f32⟩ : BufTy).Contents (Elt Ideal))
    (q p : Fin 4) (k : Fin 64) (j : Fin 32) :
    Terms.kron32 (F := Ideal) e w
        (ix2 (⟨64 * q.val + k.val, by have := q.isLt; have := k.isLt; omega⟩ : Fin 256)
             (⟨32 * p.val + j.val, by have := p.isLt; have := j.isLt; omega⟩ : Fin 128))
      = e (ix2 q p) * w (ix2 k j) := by
  unfold Terms.kron32
  rw [shapeCast_apply _ shapeCasts_S4x64x4x32_S256x128 _ (ix4 q k p j)
    (by rewrite [Shape.rowMajor_val_four, Shape.rowMajor_val_two]
        have := q.isLt; have := k.isLt; have := p.isLt; have := j.isLt
        show ((q.val * 64 + k.val) * 4 + p.val) * 32 + j.val = (64 * q.val + k.val) * 128 + (32 * p.val + j.val)
        omega)]
  show _ * _ = _
  rw [eyeBcast32_apply e q p k j, wBcast32_apply w q p k j]

end Cert.KernelIdeal.TermReads

end
-- ==== Proof.LibScatterRead.lean ====
/-
  An accumulating scatter of rows, read at an index.

  The scatter takes an operand `x : [N, C]`, one signed index per update row (`idx : [E, 1]`) and updates
  `upd : [E, C]`; update row `e` is added, column by column, into operand row `idx e` when `0 ≤ idx e < N` and is
  dropped otherwise. With exact addition the result at `(n, c)` is
  `x(n, c) + ∑ {e | idx e = n} upd(e, c)`:
  each column is scattered independently of the others. Hence a scatter of several column groups packed side by
  side, read in one group, is the scatter of that group alone; and a scatter of a flattened `[E, H·3]` array whose
  column `3h + c` holds `m(e,h) * d(e,c)`, read back as `[N, H, 3]`, is `∑ {e | idx e = n} m(e,h) * d(e,c)`.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-- The dimension numbers of a row scatter: operand `[N, C]`, indices `[E, 1]` (one scalar index per update row, on
    the index-vector axis 1), updates `[E, C]`; the updates' axis 1 is the window axis, the operand's axis 0 is inserted
    and is the axis the index addresses. The well-formedness conditions `wf` are whatever proof the caller has. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-! ### Where update `(e, k)` lands: row `idx e` (read signed), column `k` -/

/-- On the row axis the window coordinate is zero (the axis is inserted) … -/
theorem rowScatter_window0 (e : Fin E) (k : Fin C) : (rowScatter N E C wf).window (ix2 e k) 0 = 0 := rfl
/-- … and on the column axis it is the update's column. -/
theorem rowScatter_window1 (e : Fin E) (k : Fin C) : (rowScatter N E C wf).window (ix2 e k) 1 = k.val := rfl
/-- The column axis is not addressed by the index: its start is zero. -/
theorem rowScatter_start1 (e : Fin E) (k : Fin C) (idx : IVec ⟨2, ![E, 1]⟩ w) :
    (rowScatter N E C wf).start (ix2 e k) idx 1 = 0 := rfl
/-- The index of update row `e` is read at `(e, 0)` of the index array. -/
theorem rowScatter_siIdx (e : Fin E) (k : Fin C) (c : Fin 1) :
    (rowScatter N E C wf).siIdx (ix2 e k) ⟨c.val, by have := c.isLt; simpa using this⟩ = ix2 e (0 : Fin 1) := by
  funext b
  match b with
  | ⟨0, _⟩ => rfl
  | ⟨1, _⟩ => exact Fin.ext (by have := c.isLt; simp [ScatterDims.siIdx])
/-- The start on the row axis is that index, read as a signed integer. -/
theorem rowScatter_start0 (e : Fin E) (k : Fin C) (idx : IVec ⟨2, ![E, 1]⟩ w) :
    (rowScatter N E C wf).start (ix2 e k) idx 0 = (idx (ix2 e (0 : Fin 1))).toInt := by
  unfold ScatterDims.start
  rw [dif_pos (by simp)]
  exact congrArg (fun q => (idx q).toInt) (rowScatter_siIdx wf e k ⟨0, by decide⟩)

/-- Update `(e, k)` lands on operand element `(n, c)` exactly when the index of row `e` is `n` and `k = c`. -/
theorem rowScatter_resultIdx?_eq_some_iff (e : Fin E) (k : Fin C) (idx : IVec ⟨2, ![E, 1]⟩ w) (n : Fin N) (c : Fin C) :
    (rowScatter N E C wf).resultIdx? (ix2 e k) idx = some (ix2 n c)
      ↔ (idx (ix2 e (0 : Fin 1))).toInt = (n.val : Int) ∧ k = c := by
  have hs0 := rowScatter_start0 wf e k idx
  have hs1 := rowScatter_start1 wf e k idx
  have hw0 := rowScatter_window0 wf e k
  have hw1 := rowScatter_window1 wf e k
  unfold ScatterDims.resultIdx?
  split
  · next h =>
    rw [Option.some.injEq]
    constructor
    · intro hf
      have h0 : ((rowScatter N E C wf).start (ix2 e k) idx 0 + ((rowScatter N E C wf).window (ix2 e k) 0 : Nat)).toNat = n.val :=
        congrArg (fun f => (f 0).val) hf
      have h1 : ((rowScatter N E C wf).start (ix2 e k) idx 1 + ((rowScatter N E C wf).window (ix2 e k) 1 : Nat)).toNat = c.val :=
        congrArg (fun f => (f 1).val) hf
      have hh0 : 0 ≤ (rowScatter N E C wf).start (ix2 e k) idx 0 + ((rowScatter N E C wf).window (ix2 e k) 0 : Nat) := (h 0).1
      rw [hs0, hw0] at h0 hh0
      rw [hs1, hw1] at h1
      refine ⟨by omega, Fin.ext (by omega)⟩
    · rintro ⟨ht, hc⟩
      funext a
      match a with
      | ⟨0, _⟩ =>
        refine Fin.ext ?_
        show ((rowScatter N E C wf).start (ix2 e k) idx 0 + ((rowScatter N E C wf).window (ix2 e k) 0 : Nat)).toNat = n.val
        rw [hs0, hw0, ht]; omega
      | ⟨1, _⟩ =>
        refine Fin.ext ?_
        show ((rowScatter N E C wf).start (ix2 e k) idx 1 + ((rowScatter N E C wf).window (ix2 e k) 1 : Nat)).toNat = c.val
        rw [hs1, hw1, hc]; omega
  · next h =>
    constructor
    · intro hf; exact absurd hf (by simp)
    · rintro ⟨ht, hc⟩
      refine absurd (fun a => ?_) h
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [hs0, hw0, ht]; have := n.isLt; omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [hs1, hw1]; have := k.isLt; omega

/-! ### The scatter read at an index -/

/-- The accumulating scatter of rows read at `(n, c)`: the operand there plus the sum, over the update rows `e` whose
    index (read signed) is `n`, of the update at `(e, c)`. Rows whose index is negative or `≥ N` match no `n` and are
    dropped. -/
theorem hostScatterAdd_rowScatter_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : Int)), upd (ix2 e c) := by
  unfold Ideal.hostScatterAdd
  refine congrArg (x (ix2 n c) + ·) ?_
  rw [Finset.sum_filter, sum_idx2, Finset.sum_filter]
  refine Finset.sum_congr rfl fun e _ => ?_
  by_cases ht : (idx (ix2 e (0 : Fin 1))).toInt = (n.val : Int)
  · rw [if_pos ht]
    rw [Finset.sum_eq_single c]
    · rw [if_pos ((rowScatter_resultIdx?_eq_some_iff wf e c idx n c).2 ⟨ht, rfl⟩)]
    · intro k _ hk
      rw [if_neg fun h => hk ((rowScatter_resultIdx?_eq_some_iff wf e k idx n c).1 h).2]
    · intro h; exact absurd (Finset.mem_univ c) h
  · rw [if_neg ht]
    refine Finset.sum_eq_zero fun k _ => ?_
    rw [if_neg fun h => ht ((rowScatter_resultIdx?_eq_some_iff wf e k idx n c).1 h).1]

/-- The same for the host's scatter as a program states it (`Host.scatterAdd` at the exact values). -/
theorem scatterAdd_rowScatter_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : Int)), upd (ix2 e c) :=
  hostScatterAdd_rowScatter_apply wf x idx upd n c

/-! ### Columns are scattered independently -/

/-- Two row scatters by the same indices, of possibly different widths, agree at `(n, c)` and `(n, c')` when their operands
    agree there and their updates agree in those two columns on every row. -/
theorem scatterAdd_rowScatter_congr_col {C' : Nat} {φ : FTy}
    (wf' : ScatterDims.WF ⟨2, ![N, C']⟩ ⟨2, ![E, 1]⟩ ⟨2, ![E, C']⟩ [1] [0] [0] 1)
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ) (n : Fin N) (c : Fin C) (c' : Fin C')
    (hx : x (ix2 n c) = x' (ix2 n c')) (hu : ∀ e : Fin E, upd (ix2 e c) = upd' (ix2 e c')) :
    Host.scatterAdd (rowScatter N E C wf) x idx upd (ix2 n c)
      = Host.scatterAdd (rowScatter N E C' wf') x' idx upd' (ix2 n c') := by
  rw [scatterAdd_rowScatter_apply, scatterAdd_rowScatter_apply, hx]
  exact congrArg (x' (ix2 n c') + ·) (Finset.sum_congr rfl fun e _ => hu e)

/-- A block of `W` columns at column offset `off`, cut out of a row scatter of width `C`, read at `(n, c)`: the scatter's
    value in column `off + c`. -/
theorem slice_scatterAdd_rowScatter_apply {W off : Nat} {φ : FTy}
    (hs : (⟨2, ![N, C]⟩ : Shape).Slices ![0, off] ⟨2, ![N, W]⟩)
    (x : FVec Ideal ⟨2, ![N, C]⟩ φ) (idx : IVec ⟨2, ![E, 1]⟩ w) (upd : FVec Ideal ⟨2, ![E, C]⟩ φ)
    (n : Fin N) (c : Fin W) (hc : off + c.val < C) :
    extractStridedSlice ⟨2, ![N, W]⟩ ![0, off] (Host.scatterAdd (rowScatter N E C wf) x idx upd) hs (ix2 n c)
      = x (ix2 n ⟨off + c.val, hc⟩)
        + ∑ e ∈ Finset.univ.filter (fun e : Fin E => (idx (ix2 e (0 : Fin 1))).toInt = (n.val : Int)),
            upd (ix2 e ⟨off + c.val, hc⟩) := by
  rw [← scatterAdd_rowScatter_apply wf x idx upd n ⟨off + c.val, hc⟩]
  unfold extractStridedSlice
  refine congrArg _ (funext fun a => ?_)
  match a with
  | ⟨0, _⟩ => exact Fin.ext (Nat.zero_add _)
  | ⟨1, _⟩ => rfl

/-- So the block of a PACKED scatter is the scatter of the block alone: if the narrow operand and updates are the packed
    ones' columns `off … off + W`, the narrow scatter at `(n, c)` is the packed scatter's block at `(n, c)`. -/
theorem slice_scatterAdd_rowScatter_eq {W off : Nat} {φ : FTy}
    (wfW : ScatterDims.WF ⟨2, ![N, W]⟩ ⟨2, ![E, 1]⟩ ⟨2, ![E, W]⟩ [1] [0] [0] 1)
    (hs : (⟨2, ![N, C]⟩ : Shape).Slices ![0, off] ⟨2, ![N, W]⟩)
    (x : FVec Ideal ⟨2, ![N, C]⟩ φ) (xW : FVec Ideal ⟨2, ![N, W]⟩ φ) (idx : IVec ⟨2, ![E, 1]⟩ w)
    (upd : FVec Ideal ⟨2, ![E, C]⟩ φ) (updW : FVec Ideal ⟨2, ![E, W]⟩ φ) (n : Fin N) (c : Fin W) (hc : off + c.val < C)
    (hx : xW (ix2 n c) = x (ix2 n ⟨off + c.val, hc⟩))
    (hu : ∀ e : Fin E, updW (ix2 e c) = upd (ix2 e ⟨off + c.val, hc⟩)) :
    extractStridedSlice ⟨2, ![N, W]⟩ ![0, off] (Host.scatterAdd (rowScatter N E C wf) x idx upd) hs (ix2 n c)
      = Host.scatterAdd (rowScatter N E W wfW) xW idx updW (ix2 n c) := by
  rw [slice_scatterAdd_rowScatter_apply wf hs x idx upd n c hc, scatterAdd_rowScatter_apply, hx]
  exact congrArg (x (ix2 n ⟨off + c.val, hc⟩) + ·) (Finset.sum_congr rfl fun e _ => (hu e).symm)

/-! ### A flattened `[E, 64, 3]` array scattered as `[E, 192]` and read back as `[N, 64, 3]` -/

/-- Flatten `mv : [E, 64, 3]` to `[E, 192]` (column `3h + c` holds `mv(e, h, c)`), scatter its rows into `x : [N, 192]`, and read the
    result as `[N, 64, 3]`: at `(n, h, c)` it is `x(n, 3h + c) + ∑ {e | idx e = n} mv(e, h, c)`. -/
theorem shapeCast_scatterAdd_shapeCast_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (idx : IVec ⟨2, ![E, 1]⟩ w) (mv : FVec Ideal ⟨3, ![E, 64, 3]⟩ φ)
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = x (ix2 n ⟨3 * h.val + c.val, by have := h.isLt; have := c.isLt; omega⟩)
        + ∑ e ∈ Finset.univ.filter (fun e : Fin E => (idx (ix2 e (0 : Fin 1))).toInt = (n.val : Int)), mv (ix3 e h c) := by
  have hq : 3 * h.val + c.val < 192 := by have := h.isLt; have := c.isLt; omega
  rw [shapeCast_apply _ h2 (ix3 n h c) (ix2 n ⟨3 * h.val + c.val, hq⟩) (by
    rw [Shape.rowMajor_val_two, Shape.rowMajor_val_three]
    show n.val * 192 + (3 * h.val + c.val) = (n.val * 64 + h.val) * 3 + c.val
    omega)]
  rw [scatterAdd_rowScatter_apply]
  refine congrArg (x (ix2 n ⟨3 * h.val + c.val, hq⟩) + ·) (Finset.sum_congr rfl fun e _ => ?_)
  exact shapeCast_apply mv h1 (ix2 e ⟨3 * h.val + c.val, hq⟩) (ix3 e h c) (by
    rw [Shape.rowMajor_val_two, Shape.rowMajor_val_three]
    show (e.val * 64 + h.val) * 3 + c.val = e.val * 192 + (3 * h.val + c.val)
    omega)

/-- With the flattened array a product `mv(e, h, c) = m(e, h) * d(e, c)` and a zero operand: the value at `(n, h, c)` is
    `∑ {e | idx e = n} m(e, h) * d(e, c)`. -/
theorem shapeCast_scatterAdd_shapeCast_mul_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (hx : ∀ i, x i = 0) (idx : IVec ⟨2, ![E, 1]⟩ w)
    (mv : FVec Ideal ⟨3, ![E, 64, 3]⟩ φ) (m : FVec Ideal ⟨2, ![E, 64]⟩ φ) (d : FVec Ideal ⟨2, ![E, 3]⟩ φ)
    (hmv : ∀ (e : Fin E) (h : Fin 64) (c : Fin 3), mv (ix3 e h c) = m (ix2 e h) * d (ix2 e c))
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = ∑ e ∈ Finset.univ.filter (fun e : Fin E => (idx (ix2 e (0 : Fin 1))).toInt = (n.val : Int)),
          m (ix2 e h) * d (ix2 e c) := by
  rw [shapeCast_scatterAdd_shapeCast_apply wf3 h1 h2 x idx mv n h c, hx, zero_add]
  exact Finset.sum_congr rfl fun e _ => hmv e h c

end RowScatter

end Cert.Spec

end
-- ==== Proof.LibScatterGather1.lean ====
/-
  A one-dimensional scatter and a one-dimensional gather, read at an index.

  The scatter takes an operand `x : [P1]`, one signed index per update (`idx : [M, 1]`) and scalar updates
  `upd : [M]`; the updates are taken in the order `k = 0, 1, …, M − 1`, and update `k` replaces the operand's element at
  `idx k` by `f` of that element and the update when `0 ≤ idx k < P1`, and is dropped otherwise. Each element of the
  operand is therefore changed only by the updates whose index names it, in increasing order of `k`: the result at `p`
  is the left fold, over `k = 0, …, M − 1`, of "if `idx k = p` then `f acc (upd k)` else `acc`", started at `x p`.

  The gather takes an operand `x : [M]` and one signed index per result element (`idx : [P, 1]`); result element `q` is
  the operand at `idx q`, read signed and clamped into `[0, M − 1]`.
-/
import Idealize.ShloMosaic.Lib.ValueIdx

namespace Cert.Lib.LastWins

open Idealize.ShloMosaic Idealize.ShloMosaic.ValueIdx

/-! ### The scatter's dimension numbers, and where update `k` lands -/

/-- The dimension numbers of a scatter of scalars into a flat array: operand `[P1]`, indices `[M, 1]` (one scalar index
    per update, on the index-vector axis 1), updates `[M]`; no window axes, the operand's one axis inserted and addressed
    by the index. The well-formedness conditions `wf` are whatever proof the caller has. -/
abbrev scat1Dims (P1 M : Nat) (wf : ScatterDims.WF ⟨1, ![P1]⟩ ⟨2, ![M, 1]⟩ ⟨1, ![M]⟩ [] [0] [0] 1) :
    ScatterDims ⟨1, ![P1]⟩ ⟨2, ![M, 1]⟩ ⟨1, ![M]⟩ where
  updateWindowDims := []
  insertedWindowDims := [0]
  scatterDimsToOperandDims := [0]
  indexVectorDim := 1
  wf := wf

section Scat1
variable {P1 M w : Nat} (wf : ScatterDims.WF ⟨1, ![P1]⟩ ⟨2, ![M, 1]⟩ ⟨1, ![M]⟩ [] [0] [0] 1)

/-- The operand's axis is inserted: the window coordinate on it is zero. -/
theorem scat1_window (k : Fin M) : (scat1Dims P1 M wf).window (ix1 k) 0 = 0 := rfl

/-- The index of update `k` is read at `(k, 0)` of the index array. -/
theorem scat1_siIdx (k : Fin M) (c : Fin 1) :
    (scat1Dims P1 M wf).siIdx (ix1 k) ⟨c.val, by have := c.isLt; simpa using this⟩ = ix2 k (0 : Fin 1) := by
  funext b
  match b with
  | ⟨0, _⟩ => rfl
  | ⟨1, _⟩ => exact Fin.ext (by have := c.isLt; simp [ScatterDims.siIdx])

/-- The start on the operand's axis is that index, read as a signed integer. -/
theorem scat1_start (k : Fin M) (idx : IVec ⟨2, ![M, 1]⟩ w) :
    (scat1Dims P1 M wf).start (ix1 k) idx 0 = (idx (ix2 k (0 : Fin 1))).toInt := by
  unfold ScatterDims.start
  rw [dif_pos (by simp)]
  exact congrArg (fun q => (idx q).toInt) (scat1_siIdx wf k ⟨0, by decide⟩)

/-- Update `k` lands on operand element `p` exactly when its index, read signed, is `p`. -/
theorem scat1_resultIdx?_eq_some_iff (k : Fin M) (idx : IVec ⟨2, ![M, 1]⟩ w) (p : Fin P1) :
    (scat1Dims P1 M wf).resultIdx? (ix1 k) idx = some (ix1 p) ↔ (idx (ix2 k (0 : Fin 1))).toInt = (p.val : Int) := by
  have hs := scat1_start wf k idx
  have hw := scat1_window wf k
  unfold ScatterDims.resultIdx?
  split
  · next h =>
    rw [Option.some.injEq]
    constructor
    · intro hf
      have h0 : ((scat1Dims P1 M wf).start (ix1 k) idx 0 + ((scat1Dims P1 M wf).window (ix1 k) 0 : Nat)).toNat = p.val :=
        congrArg (fun g => (g 0).val) hf
      have hh0 : 0 ≤ (scat1Dims P1 M wf).start (ix1 k) idx 0 + ((scat1Dims P1 M wf).window (ix1 k) 0 : Nat) := (h 0).1
      rw [hs, hw] at h0 hh0
      omega
    · intro ht
      funext a
      match a with
      | ⟨0, _⟩ =>
        refine Fin.ext ?_
        show ((scat1Dims P1 M wf).start (ix1 k) idx 0 + ((scat1Dims P1 M wf).window (ix1 k) 0 : Nat)).toNat = p.val
        rw [hs, hw, ht]; omega
  · next h =>
    constructor
    · intro hf; exact absurd hf (by simp)
    · intro ht
      refine absurd (fun a => ?_) h
      match a with
      | ⟨0, _⟩ =>
        show 0 ≤ (scat1Dims P1 M wf).start (ix1 k) idx 0 + ((scat1Dims P1 M wf).window (ix1 k) 0 : Nat)
          ∧ (scat1Dims P1 M wf).start (ix1 k) idx 0 + ((scat1Dims P1 M wf).window (ix1 k) 0 : Nat) < (P1 : Int)
        rw [hs, hw, ht]; have := p.isLt; omega

end Scat1

/-! ### A fold of pointwise updates, read at one point -/

/-- A left fold of functions whose every step `n` changes the function only at the points `p` with `hit n p`, there to
    `g n` of the old value at `p`: read at `p`, it is the fold over the value at `p` of the steps that hit `p`. -/
theorem foldl_pointwise_apply {ι β γ : Type} (step : (ι → β) → γ → ι → β) (hit : γ → ι → Prop)
    [∀ n p, Decidable (hit n p)] (g : γ → β → β)
    (hstep : ∀ r n p, step r n p = if hit n p then g n (r p) else r p) (l : List γ) (x : ι → β) (p : ι) :
    (l.foldl step x) p = l.foldl (fun acc n => if hit n p then g n acc else acc) (x p) := by
  induction l generalizing x with
  | nil => rfl
  | cons n l ih => rw [List.foldl_cons, List.foldl_cons, ih, hstep]

/-- The list of a flat shape's indices in row-major order is the list of its coordinates. -/
theorem map_rowMajor_symm_finRange (M : Nat) :
    (List.finRange (⟨1, ![M]⟩ : Shape).numel).map (⟨1, ![M]⟩ : Shape).rowMajor.symm
      = (List.finRange M).map (ix1 (n := M)) := by
  have hM : (⟨1, ![M]⟩ : Shape).numel = M := by simp [Shape.numel]
  apply List.ext_getElem
  · simp [hM]
  · intro i h1 h2
    simp only [List.getElem_map, List.getElem_finRange]
    rw [Equiv.symm_apply_eq]
    refine Fin.ext ?_
    rw [Shape.rowMajor_val_one]
    rfl

/-! ### The scatter read at an index -/

/-- THE SCATTER READ AT `p`: the left fold, over the updates `k = 0, …, M − 1` in order, of "if update `k`'s index (read
    signed) is `p` then `f acc (upd k)` else `acc`", started at the operand's element `p`. -/
theorem scatter_scat1_apply {α : Type} {P1 M w : Nat} (wf : ScatterDims.WF ⟨1, ![P1]⟩ ⟨2, ![M, 1]⟩ ⟨1, ![M]⟩ [] [0] [0] 1)
    (f : α → α → α) (x : (⟨1, ![P1]⟩ : Shape).Idx → α) (idx : IVec ⟨2, ![M, 1]⟩ w) (upd : (⟨1, ![M]⟩ : Shape).Idx → α)
    (p : Fin P1) :
    Host.scatter (scat1Dims P1 M wf) f x idx upd (ix1 p)
      = (List.finRange M).foldl
          (fun acc k => if (idx (ix2 k (0 : Fin 1))).toInt = (p.val : Int) then f acc (upd (ix1 k)) else acc) (x (ix1 p)) := by
  unfold Host.scatter
  refine Eq.trans (foldl_pointwise_apply _
    (fun n j => (scat1Dims P1 M wf).resultIdx? ((⟨1, ![M]⟩ : Shape).rowMajor.symm n) idx = some j)
    (fun n a => f a (upd ((⟨1, ![M]⟩ : Shape).rowMajor.symm n))) ?_
    (List.finRange (⟨1, ![M]⟩ : Shape).numel) x (ix1 p)) ?_
  · intro r n j
    cases h : (scat1Dims P1 M wf).resultIdx? ((⟨1, ![M]⟩ : Shape).rowMajor.symm n) idx with
    | none => simp
    | some i =>
      by_cases hj : j = i
      · subst hj; simp
      · have hne : ¬ (some i = some j) := fun e => hj (Option.some.inj e).symm
        simp [hj, hne]
  have h2 := List.foldl_map (f := (⟨1, ![M]⟩ : Shape).rowMajor.symm)
    (g := fun acc (j : (⟨1, ![M]⟩ : Shape).Idx) =>
      if (scat1Dims P1 M wf).resultIdx? j idx = some (ix1 p) then f acc (upd j) else acc)
    (l := List.finRange (⟨1, ![M]⟩ : Shape).numel) (init := x (ix1 p))
  refine Eq.trans h2.symm ?_
  rw [map_rowMajor_symm_finRange, List.foldl_map]
  refine congrArg (fun g => List.foldl g (x (ix1 p)) (List.finRange M)) ?_
  funext acc k
  by_cases hk : (idx (ix2 k (0 : Fin 1))).toInt = (p.val : Int)
  · rw [if_pos hk, if_pos ((scat1_resultIdx?_eq_some_iff wf k idx p).2 hk)]
  · rw [if_neg hk, if_neg fun h => hk ((scat1_resultIdx?_eq_some_iff wf k idx p).1 h)]

/-! ### The gather's dimension numbers, and the gather read at an index -/

/-- The dimension numbers of `x[idx]` for a flat operand `[M]`, start indices `[P, 1]` (one scalar index per result
    element, on the index-vector axis 1) and result `[P]`: no offset axes, the operand's one axis collapsed and addressed by
    the index, slices of one element. -/
abbrev take1Dims (M P : Nat) (wf : GatherDims.WF ⟨1, ![M]⟩ ⟨2, ![P, 1]⟩ ⟨1, ![P]⟩ [] [0] [] [0] [] 1 ![1]) :
    GatherDims ⟨1, ![M]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- THE GATHER READ AT `q`: the operand at the start index `idx[q, 0]`, read signed and clamped into `[0, M − 1]`. -/
theorem gather_take1_apply {α : Type} {M P w : Nat} (hM : 0 < M)
    (wf : GatherDims.WF ⟨1, ![M]⟩ ⟨2, ![P, 1]⟩ ⟨1, ![P]⟩ [] [0] [] [0] [] 1 ![1])
    (x : (⟨1, ![M]⟩ : Shape).Idx → α) (idx : IVec ⟨2, ![P, 1]⟩ w) (q : Fin P) :
    Host.gather (take1Dims M P wf) x idx (ix1 q)
      = x (ix1 ⟨min (idx (ix2 q (0 : Fin 1))).toInt.toNat (M - 1), by omega⟩) := by
  unfold Host.gather
  congr 1
  funext a
  obtain rfl : a = 0 := Subsingleton.elim _ _
  refine Fin.ext ?_
  show (take1Dims M P wf).start (ix1 q) idx 0 + (take1Dims M P wf).batchCoord (ix1 q) 0
    + (take1Dims M P wf).offCoord (ix1 q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims M P wf).startIndexMap from List.mem_singleton.mpr rfl)]
  have hsi : (take1Dims M P wf).siIdx (ix1 q) ⟨List.idxOf (0 : Fin 1) (take1Dims M P wf).startIndexMap,
      List.idxOf_lt_length_iff.2 (List.mem_singleton.mpr rfl)⟩ = ix2 q (0 : Fin 1) := by
    funext b; refine Fin.ext ?_
    match b with
    | ⟨0, _⟩ => rfl
    | ⟨1, _⟩ => rfl
  rw [hsi]
  rfl

end Cert.Lib.LastWins
-- ==== Proof.LibSideBySide.lean ====
/-
  Two matrices laid side by side, read one entry at a time.

  For `x : [K, A]` and `y : [K, B]` the array `[x | y] : [K, T]` (the concatenation along the column axis) has column
  `q` of `x` as its column `q`, for `q < A`, and column `q` of `y` as its column `A + q`, for `q < B`.
-/
import Idealize.ShloMosaic.Lib.Pipeline.Value
import Idealize.ShloMosaic.Lib.ValueIdx

noncomputable section

namespace Cert.SideBySide

open Idealize.ShloMosaic Idealize.ShloMosaic.ValueIdx

variable {α : Type} {K A B T : Nat}

/-- A column of the left piece. -/
theorem left_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin A) (c : Fin T)
    (hc : c.val = q.val) :
    concatenate ⟨2, ![K, T]⟩ 1 [⟨⟨2, ![K, A]⟩, x⟩, ⟨⟨2, ![K, B]⟩, y⟩] h (ix2 k c) = x (ix2 k q) :=
  concatenate_apply_piece (t := ⟨2, ![K, T]⟩) (1 : Fin 2) [⟨⟨2, ![K, A]⟩, x⟩, ⟨⟨2, ![K, B]⟩, y⟩] h (ix2 k c) 0 (by simp) ⟨2, ![K, A]⟩ x rfl rfl
    0 rfl (ix2 k q)
    (fun b hb => match b, hb with
      | ⟨0, _⟩, _ => rfl
      | ⟨1, _⟩, hb => absurd rfl hb)
    (by show 0 + q.val = c.val; omega)

/-- A column of the right piece. -/
theorem right_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin B) (c : Fin T)
    (hc : c.val = A + q.val) :
    concatenate ⟨2, ![K, T]⟩ 1 [⟨⟨2, ![K, A]⟩, x⟩, ⟨⟨2, ![K, B]⟩, y⟩] h (ix2 k c) = y (ix2 k q) :=
  concatenate_apply_piece (t := ⟨2, ![K, T]⟩) (1 : Fin 2) [⟨⟨2, ![K, A]⟩, x⟩, ⟨⟨2, ![K, B]⟩, y⟩] h (ix2 k c) 1 (by simp) ⟨2, ![K, B]⟩ y rfl rfl
    A (by simp) (ix2 k q)
    (fun b hb => match b, hb with
      | ⟨0, _⟩, _ => rfl
      | ⟨1, _⟩, hb => absurd rfl hb)
    (by show A + q.val = c.val; omega)

end Cert.SideBySide

end
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.LibERealCoe.lean ====
/-
  Pushing the coercion of the reals into the extended reals through finite sums, maxima and minima.

  The coercion ℝ → [-∞, +∞] is an additive map and strictly monotone, so it commutes with a finite sum and with the
  maximum and the minimum of two reals. With these an identity between extended-real expressions whose entries are
  all (coercions of) reals is the coercion of the same identity over ℝ, where distributivity and cancellation hold.
-/
import Mathlib.Data.EReal.Operations
import Mathlib.Algebra.BigOperators.Group.Finset.Basic

open scoped BigOperators

namespace Cert.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The coercion of the smaller of two reals is the smaller of the coercions. -/
theorem coe_min (a b : ℝ) : ((min a b : ℝ) : EReal) = min (a : EReal) (b : EReal) :=
  EReal.coe_strictMono.monotone.map_min

/-- A finite sum of extended reals that are all reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

end Cert.Spec
-- ==== Proof.ScatterCols.lean ====
/-
  The fused program's packed scatter against the reference's two scatters.

  The host scatters, per edge, the row [message | 1.0] of 65 entries into a zero [100000, 65] array by the edge's
  destination, and reads columns 0 … 63 back as the message sums and column 64 as the in-degree. With exact addition
  a row scatter adds each column independently of the others. So columns 0 … 63 are the scatter of the messages alone
  into a zero [100000, 64] array, which is the reference's aggregation; and column 64 at node n is the sum of one 1.0
  for every edge whose destination is n, which is the reference's scatter of a flat array of ones into a zero flat
  array. That sum is a natural number: the number of edges into n.
-/
import proofs.«161085_j73383811220028_2_alg».proof.Proof.KernelTerms
import proofs.«161085_j73383811220028_2_alg».proof.Proof.Gen.ReferenceIdeal.Read
import proofs.«161085_j73383811220028_2_alg».proof.Proof.Spec
import proofs.«161085_j73383811220028_2_alg».proof.Proof.LibScatterRead
import proofs.«161085_j73383811220028_2_alg».proof.Proof.LibScatterGather1
import proofs.«161085_j73383811220028_2_alg».proof.Proof.LibSideBySide
import proofs.«161085_j73383811220028_2_alg».proof.Proof.LibTileSum
import proofs.«161085_j73383811220028_2_alg».proof.Proof.LibERealCoe
import Idealize.ShloMosaic.Lib.IdealHost

noncomputable section

open scoped BigOperators

namespace Cert.Layer.Scatter

open Idealize.ShloMosaic Idealize.ShloMosaic.ValueIdx

/-! ### The two float words -/

/-- The word of the float 1.0 is the extended real one. -/
theorem oneW_eq : Cert.Layer.oneW = 1 := Ideal.ofBits_one_f32

/-- The word of the float 0.0 is the extended real zero. -/
theorem zeroW_eq : Cert.Layer.zeroW = 0 := Ideal.ofBits_zero_f32

/-! ### An accumulating scatter of scalars, read at an index -/

/-- The accumulating scatter of scalars into a flat array, read at `p`: the operand there plus the sum of the updates
    whose index (read signed) is `p`. An update whose index is negative or past the end matches no `p` and is dropped. -/
theorem hostScatterAdd_scat1_apply {P1 M w : Nat}
    (wf : ScatterDims.WF ⟨1, ![P1]⟩ ⟨2, ![M, 1]⟩ ⟨1, ![M]⟩ [] [0] [0] 1)
    (x : (⟨1, ![P1]⟩ : Shape).Idx → EReal) (idx : IVec ⟨2, ![M, 1]⟩ w) (upd : (⟨1, ![M]⟩ : Shape).Idx → EReal)
    (p : Fin P1) :
    Ideal.hostScatterAdd (Cert.Lib.LastWins.scat1Dims P1 M wf) x idx upd (ix1 p)
      = x (ix1 p)
        + ∑ e ∈ Finset.univ.filter (fun e : Fin M => (idx (ix2 e (0 : Fin 1))).toInt = (p.val : Int)), upd (ix1 e) := by
  unfold Ideal.hostScatterAdd
  refine congrArg (x (ix1 p) + ·) ?_
  rw [Finset.sum_filter, Cert.Lib.TileSum.sum_idx1, Finset.sum_filter]
  refine Finset.sum_congr rfl fun e _ => ?_
  by_cases ht : (idx (ix2 e (0 : Fin 1))).toInt = (p.val : Int)
  · rw [if_pos ht, if_pos ((Cert.Lib.LastWins.scat1_resultIdx?_eq_some_iff wf e idx p).2 ht)]
  · rw [if_neg ht, if_neg fun h => ht ((Cert.Lib.LastWins.scat1_resultIdx?_eq_some_iff wf e idx p).1 h)]

/-- The same for the host's scatter as a program states it. -/
theorem scatterAdd_scat1_apply {P1 M w : Nat} {φ : FTy}
    (wf : ScatterDims.WF ⟨1, ![P1]⟩ ⟨2, ![M, 1]⟩ ⟨1, ![M]⟩ [] [0] [0] 1)
    (x : FVec Ideal ⟨1, ![P1]⟩ φ) (idx : IVec ⟨2, ![M, 1]⟩ w) (upd : FVec Ideal ⟨1, ![M]⟩ φ) (p : Fin P1) :
    Host.scatterAdd (Cert.Lib.LastWins.scat1Dims P1 M wf) x idx upd (ix1 p)
      = x (ix1 p)
        + ∑ e ∈ Finset.univ.filter (fun e : Fin M => (idx (ix2 e (0 : Fin 1))).toInt = (p.val : Int)), upd (ix1 e) :=
  hostScatterAdd_scat1_apply wf x idx upd p

/-! ### The operands the two programs share -/

/-- The fused program's gathered messages are the reference's: the same gather of the same wrapped sources. -/
theorem msgs_eq (x0 : (⟨Cert.KernelIdeal.S100000x64, .f32⟩ : BufTy).Contents (Elt Ideal))
    (x2 : (⟨Cert.KernelIdeal.S2x1600000, .i32⟩ : BufTy).Contents (Elt Ideal)) :
    Cert.KernelIdeal.Terms.msgs (F := Ideal) x0 x2 = Cert.ReferenceIdeal.Read.val_main_v10 (F := Ideal) x0 x2 := rfl

/-- The fused program's destination column is the one the reference's flat scatter reads. -/
theorem dstCol_eq (x2 : (⟨Cert.KernelIdeal.S2x1600000, .i32⟩ : BufTy).Contents (Elt Ideal)) :
    Cert.KernelIdeal.Terms.dstCol (F := Ideal) x2 = Cert.ReferenceIdeal.Read.val_main_v16 (F := Ideal) x2 := rfl

/-! ### The packed updates, column by column -/

/-- Columns 0 … 63 of the packed updates are the messages. -/
theorem msgsAug_left (x0 : (⟨Cert.KernelIdeal.S100000x64, .f32⟩ : BufTy).Contents (Elt Ideal))
    (x2 : (⟨Cert.KernelIdeal.S2x1600000, .i32⟩ : BufTy).Contents (Elt Ideal)) (e : Fin 1600000) (k : Fin 64)
    (hc : 0 + k.val < 65) :
    Cert.KernelIdeal.Terms.msgsAug (F := Ideal) x0 x2 (ix2 e ⟨0 + k.val, hc⟩)
      = Cert.ReferenceIdeal.Read.val_main_v10 (F := Ideal) x0 x2 (ix2 e k) := by
  unfold Cert.KernelIdeal.Terms.msgsAug
  rw [← msgs_eq]
  exact Cert.SideBySide.left_apply (K := 1600000) (A := 64) (B := 1) (T := 65) (Cert.KernelIdeal.Terms.msgs (F := Ideal) x0 x2)
    (Cert.KernelIdeal.Terms.onesCol (F := Ideal)) Cert.KernelIdeal.Gen.concatenates_S1600000x64_S1600000x1_S1600000x65_d1
    e k ⟨0 + k.val, hc⟩ (Nat.zero_add _)

/-- Column 64 of the packed updates is the word of 1.0 on every row. -/
theorem msgsAug_right (x0 : (⟨Cert.KernelIdeal.S100000x64, .f32⟩ : BufTy).Contents (Elt Ideal))
    (x2 : (⟨Cert.KernelIdeal.S2x1600000, .i32⟩ : BufTy).Contents (Elt Ideal)) (e : Fin 1600000)
    (hc : 64 + (0 : Fin 1).val < 65) :
    Cert.KernelIdeal.Terms.msgsAug (F := Ideal) x0 x2 (ix2 e ⟨64 + (0 : Fin 1).val, hc⟩) = Cert.Layer.oneW := by
  unfold Cert.KernelIdeal.Terms.msgsAug
  exact (Cert.SideBySide.right_apply (K := 1600000) (A := 64) (B := 1) (T := 65) (Cert.KernelIdeal.Terms.msgs (F := Ideal) x0 x2)
    (Cert.KernelIdeal.Terms.onesCol (F := Ideal)) Cert.KernelIdeal.Gen.concatenates_S1600000x64_S1600000x1_S1600000x65_d1
    e (0 : Fin 1) ⟨64 + (0 : Fin 1).val, hc⟩ rfl).trans rfl

/-! ### The message sums -/

/-- Columns 0 … 63 of the packed scatter are the reference's scatter of the messages alone. -/
theorem aggS_eq (x0 : (⟨Cert.KernelIdeal.S100000x64, .f32⟩ : BufTy).Contents (Elt Ideal))
    (x2 : (⟨Cert.KernelIdeal.S2x1600000, .i32⟩ : BufTy).Contents (Elt Ideal)) (n : Fin 100000) (k : Fin 64) :
    Cert.KernelIdeal.Terms.aggS (F := Ideal) x0 x2 (ix2 n k)
      = Cert.ReferenceIdeal.Read.val_main_v13 (F := Ideal) x0 x2 (ix2 n k) := by
  have hc : 0 + k.val < 65 := by have := k.isLt; omega
  exact Cert.Spec.slice_scatterAdd_rowScatter_eq (N := 100000) (E := 1600000) (C := 65) (W := 64) (off := 0) (φ := .f32)
    Cert.KernelIdeal.Gen.scatter_S100000x65_S1600000x1_S1600000x65_1_0_0_1_wf
    Cert.ReferenceIdeal.Gen.scatter_S100000x64_S1600000x1_S1600000x64_1_0_0_1_wf
    Cert.KernelIdeal.Gen.slices_S100000x65_S100000x64_0_0
    (Cert.KernelIdeal.Terms.zeros65 (F := Ideal)) (Cert.ReferenceIdeal.Read.val_main_v11 (F := Ideal))
    (Cert.KernelIdeal.Terms.dstCol (F := Ideal) x2)
    (Cert.KernelIdeal.Terms.msgsAug (F := Ideal) x0 x2) (Cert.ReferenceIdeal.Read.val_main_v10 (F := Ideal) x0 x2)
    n k hc rfl (fun e => (msgsAug_left x0 x2 e k hc).symm)

/-! ### The in-degree -/

/-- The reference's in-degree at n: the word of 0.0 plus the word of 1.0 once for every edge whose destination is n. -/
theorem deg_apply (x2 : (⟨Cert.ReferenceIdeal.S2x1600000, .i32⟩ : BufTy).Contents (Elt Ideal)) (n : Fin 100000) :
    Cert.ReferenceIdeal.Read.val_main_v17 (F := Ideal) x2 (ix1 n)
      = Cert.Layer.zeroW + ∑ e ∈ Finset.univ.filter (fun e : Fin 1600000 =>
          (Cert.ReferenceIdeal.Read.val_main_v16 (F := Ideal) x2 (ix2 e (0 : Fin 1))).toInt = (n.val : Int)), Cert.Layer.oneW := by
  unfold Cert.ReferenceIdeal.Read.val_main_v17
  refine (scatterAdd_scat1_apply (P1 := 100000) (M := 1600000) (φ := .f32)
    Cert.ReferenceIdeal.Gen.scatter_S100000_S1600000x1_S1600000_n_0_0_1_wf
    (Cert.ReferenceIdeal.Read.val_main_v15 (F := Ideal)) (Cert.ReferenceIdeal.Read.val_main_v16 (F := Ideal) x2)
    (Cert.ReferenceIdeal.Read.val_main_v14 (F := Ideal)) n).trans ?_
  rw [Cert.ReferenceIdeal.Read.val_main_v15_apply, Cert.ReferenceIdeal.Read.val_main_cst_2_apply]
  refine congrArg (Cert.Layer.zeroW + ·) (Finset.sum_congr rfl fun e _ => ?_)
  rw [Cert.ReferenceIdeal.Read.val_main_v14_apply, Cert.ReferenceIdeal.Read.val_main_cst_1_apply]
  rfl

/-- Column 64 of the packed scatter at n: the word of 0.0 plus the word of 1.0 once for every edge whose destination
    is n. -/
theorem degS_apply (x0 : (⟨Cert.KernelIdeal.S100000x64, .f32⟩ : BufTy).Contents (Elt Ideal))
    (x2 : (⟨Cert.KernelIdeal.S2x1600000, .i32⟩ : BufTy).Contents (Elt Ideal)) (n : Fin 100000) :
    Cert.KernelIdeal.Terms.degS (F := Ideal) x0 x2 (ix1 n)
      = Cert.Layer.zeroW + ∑ e ∈ Finset.univ.filter (fun e : Fin 1600000 =>
          (Cert.KernelIdeal.Terms.dstCol (F := Ideal) x2 (ix2 e (0 : Fin 1))).toInt = (n.val : Int)), Cert.Layer.oneW := by
  have hc : 64 + (0 : Fin 1).val < 65 := by decide
  have hcast : Cert.KernelIdeal.Terms.degS (F := Ideal) x0 x2 (ix1 n)
      = extractStridedSlice Cert.KernelIdeal.S100000x1 ![0, 64] (Cert.KernelIdeal.Terms.aggDeg (F := Ideal) x0 x2)
          Cert.KernelIdeal.Gen.slices_S100000x65_S100000x1_0_64 (ix2 n (0 : Fin 1)) := by
    unfold Cert.KernelIdeal.Terms.degS
    generalize extractStridedSlice Cert.KernelIdeal.S100000x1 ![0, 64] (Cert.KernelIdeal.Terms.aggDeg (F := Ideal) x0 x2)
      Cert.KernelIdeal.Gen.slices_S100000x65_S100000x1_0_64 = y
    exact shapeCast_apply y Cert.KernelIdeal.Gen.shapeCasts_S100000x1_S100000 (ix1 n) (ix2 n (0 : Fin 1))
      (by rewrite [Shape.rowMajor_val_two, Shape.rowMajor_val_one]; show n.val * 1 + 0 = n.val; omega)
  rw [hcast]
  refine (Cert.Spec.slice_scatterAdd_rowScatter_apply (N := 100000) (E := 1600000) (C := 65) (W := 1) (off := 64) (φ := .f32)
    Cert.KernelIdeal.Gen.scatter_S100000x65_S1600000x1_S1600000x65_1_0_0_1_wf
    Cert.KernelIdeal.Gen.slices_S100000x65_S100000x1_0_64
    (Cert.KernelIdeal.Terms.zeros65 (F := Ideal)) (Cert.KernelIdeal.Terms.dstCol (F := Ideal) x2)
    (Cert.KernelIdeal.Terms.msgsAug (F := Ideal) x0 x2) n (0 : Fin 1) hc).trans ?_
  exact congrArg₂ (· + ·) rfl (Finset.sum_congr rfl fun e _ => msgsAug_right x0 x2 e hc)

/-- Column 64 of the packed scatter is the reference's scatter of a flat array of ones. -/
theorem degS_eq (x0 : (⟨Cert.KernelIdeal.S100000x64, .f32⟩ : BufTy).Contents (Elt Ideal))
    (x2 : (⟨Cert.KernelIdeal.S2x1600000, .i32⟩ : BufTy).Contents (Elt Ideal)) (n : Fin 100000) :
    Cert.KernelIdeal.Terms.degS (F := Ideal) x0 x2 (ix1 n)
      = Cert.ReferenceIdeal.Read.val_main_v17 (F := Ideal) x2 (ix1 n) := by
  rw [degS_apply, deg_apply, dstCol_eq]

/-- The in-degree is a real number that is not negative: the number of the edges into n. -/
theorem deg_real (x2 : (⟨Cert.ReferenceIdeal.S2x1600000, .i32⟩ : BufTy).Contents (Elt Ideal)) (n : Fin 100000) :
    ∃ r : ℝ, 0 ≤ r ∧ Cert.ReferenceIdeal.Read.val_main_v17 (F := Ideal) x2 (ix1 n) = (r : EReal) := by
  refine ⟨∑ _e ∈ Finset.univ.filter (fun e : Fin 1600000 =>
      (Cert.ReferenceIdeal.Read.val_main_v16 (F := Ideal) x2 (ix2 e (0 : Fin 1))).toInt = (n.val : Int)), (1 : ℝ),
    Finset.sum_nonneg fun _ _ => zero_le_one, ?_⟩
  rw [deg_apply, zeroW_eq, oneW_eq, zero_add, Cert.Spec.coe_sum]
  exact Finset.sum_congr rfl fun _ _ => EReal.coe_one.symm

end Cert.Layer.Scatter

end
-- ==== Proof.LibSumScale.lean ====
/-
  A finite sum on the extended reals times a nonnegative finite factor.

  Multiplication on `EReal` does not distribute over addition in general (`⊤ + ⊥ = ⊥` breaks it for a negative
  factor), but it does for a factor `x` with `0 ≤ x` and `x ≠ ⊤`: `(y + z) * x = y * x + z * x` for ALL `y z`, the
  infinities included. Hence a scale of that kind moves in and out of a finite sum with no finiteness of the terms,
  and, multiplication being associative and commutative, in and out of a sum of products:
  `∑ c, a c * (b c * x) = (∑ c, a c * b c) * x`.
-/
import Mathlib.Data.EReal.Inv
import Mathlib.Algebra.BigOperators.Group.Finset.Basic

open scoped BigOperators

namespace LibSumScale

/-- A finite sum times a nonnegative factor other than `⊤` is the sum of the terms times that factor. -/
theorem sum_mul {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- A contraction whose right factor carries a nonnegative finite scale is the unscaled contraction times the
    scale. -/
theorem sum_mul_scaled {ι : Type*} (s : Finset ι) (a b : ι → EReal) {x : EReal} (hx : 0 ≤ x) (hx' : x ≠ ⊤) :
    ∑ i ∈ s, a i * (b i * x) = (∑ i ∈ s, a i * b i) * x := by
  rw [sum_mul s _ hx hx']
  exact Finset.sum_congr rfl fun i _ => (mul_assoc (a i) (b i) x).symm

end LibSumScale
-- ==== Proof.LibBlockDiag.lean ====
/-
  Block-diagonal contractions, and a mean taken after a contraction, on the extended reals.

  A vector of N = A·B entries is A blocks of B; entry B·q + k is entry k of block q. A matrix is block-diagonal with
  diagonal block w when its entry (B·q + k, B·p + h) is e(q, p) · w(k, h) for the identity pattern e. Then

  * a contraction of such a vector against column B·p + h collapses to block p's own B-term contraction with w(·, h):
    off the diagonal a term is a · (0 · w) = 0 whatever a and w are, so nothing has to be finite
    (blockdiag_sum);
  * contracting A values against column p of the pattern itself picks the p-th (onehot_sum);
  * dividing every term's left factor by a real d ≥ 1 before a contraction is multiplying the contraction by 1 / d
    after it: the reciprocal is a factor 0 ≤ c < ⊤, which moves across a finite sum of arbitrary extended reals
    (mean_after; any finite index type).
-/
import Idealize.ShloMosaic.PureOps.Ideal
import proofs.«161085_j73383811220028_2_alg».proof.Proof.LibSumScale
import proofs.«161085_j73383811220028_2_alg».proof.Proof.LibTileSum

noncomputable section

namespace Cert.Lib.BlockDiag

open Idealize.ShloMosaic Cert.Lib.TileSum

/-- A contraction over A·B entries against a column of a block-diagonal matrix is block p's own B-term
    contraction: the other blocks contribute a · (0 · w) = 0. -/
theorem blockdiag_sum {A B N : ℕ} (hN : A * B = N) (e : Fin A → Fin A → EReal)
    (he : ∀ q p, e q p = if q = p then 1 else 0) (a : Fin A → Fin B → EReal) (w : Fin B → EReal) (p : Fin A)
    (x y : Fin N → EReal) (hx : ∀ q k, x (tileRow hN q k) = a q k) (hy : ∀ q k, y (tileRow hN q k) = e q p * w k) :
    ∑ c : Fin N, x c * y c = ∑ k : Fin B, a p k * w k := by
  rw [← sum_tiles hN, Finset.sum_eq_single p]
  · refine Finset.sum_congr rfl fun k _ => ?_
    rw [hx, hy, he, if_pos rfl, one_mul]
  · intro q _ hq
    refine Finset.sum_eq_zero fun k _ => ?_
    rw [hx, hy, he, if_neg hq, zero_mul, mul_zero]
  · intro h; exact absurd (Finset.mem_univ p) h

/-- A values contracted against column p of the identity pattern: the p-th value. -/
theorem onehot_sum {A : ℕ} (e : Fin A → Fin A → EReal) (he : ∀ q p, e q p = if q = p then 1 else 0)
    (d : Fin A → EReal) (p : Fin A) (z : Fin A → EReal) (hz : ∀ q, z q = e q p) :
    ∑ q : Fin A, d q * z q = d p := by
  rw [Finset.sum_eq_single p]
  · rw [hz, he, if_pos rfl, mul_one]
  · intro q _ hq
    rw [hz, he, if_neg hq, mul_zero]
  · intro h; exact absurd (Finset.mem_univ p) h

/-- Dividing each left factor by a real d ≥ 1 before the contraction is multiplying the contraction by 1 / d after
    it. -/
theorem mean_after {ι : Type*} [Fintype ι] (a w : ι → EReal) (d : ℝ) (hd : 1 ≤ d) :
    (∑ k : ι, a k * w k) * Ideal.div 1 (d : EReal) = ∑ k : ι, Ideal.div (a k) (d : EReal) * w k := by
  have hd0 : d ≠ 0 := by intro h; rw [h] at hd; norm_num at hd
  have hpos : (0 : ℝ) ≤ 1 / d := by positivity
  rw [Ideal.div_coe hd0, one_mul, LibSumScale.sum_mul _ _ (EReal.coe_nonneg.mpr hpos) (EReal.coe_ne_top _)]
  refine Finset.sum_congr rfl fun k _ => ?_
  rw [Ideal.div_coe hd0, mul_right_comm]

end Cert.Lib.BlockDiag

end
-- ==== Proof.Algebra.lean ====
/-
  The algebra that joins the packed kernel to the layer.

  The kernel packs four consecutive nodes into one row of 256 lanes and multiplies by block-diagonal matrices: lane
  64·q + k of a packed row is node 4·r + q's entry k, and entry (64·q + k, 64·p + h) of a block-diagonal matrix is
  e(q, p) · w(k, h) with e the 4 × 4 identity pattern. Three facts, all on the extended reals:

  * a contraction over the 256 lanes against a block-diagonal column collapses to the 64-term contraction of node
    4·r + p alone: off the diagonal a term is a · (0 · w) = 0 whatever a and w are, so nothing has to be finite;
  * the four packed reciprocal degrees contracted against the column of e pick the p-th;
  * the mean may be taken after the contraction instead of before it: the reciprocal of a real d ≥ 1 is a factor
    0 ≤ c < ⊤, and such a factor moves across a finite sum of arbitrary extended reals.
-/
import proofs.«161085_j73383811220028_2_alg».proof.Proof.Spec
import proofs.«161085_j73383811220028_2_alg».proof.Proof.LibBlockDiag
import proofs.«161085_j73383811220028_2_alg».proof.Proof.LibERealCoe
import Idealize.ShloMosaic.Lib.IdealHost

noncomputable section

namespace Cert.Layer

open Idealize.ShloMosaic

/-- Lane 64·q + k of a packed row of 256. -/
abbrev lane (q : Fin 4) (k : Fin 64) : Fin 256 := ⟨64 * q.val + k.val, by have := q.isLt; have := k.isLt; omega⟩
/-- Lane 32·q + j of a packed row of 128. -/
abbrev lane32 (q : Fin 4) (j : Fin 32) : Fin 128 := ⟨32 * q.val + j.val, by have := q.isLt; have := j.isLt; omega⟩
/-- Node 4·r + q: the q-th node of packed row r. -/
abbrev node (r : Fin 25000) (q : Fin 4) : Fin 100000 := ⟨4 * r.val + q.val, by have := r.isLt; have := q.isLt; omega⟩

theorem oneW_eq : oneW = 1 := Ideal.ofBits_one_f32
theorem zeroW_eq : zeroW = 0 := Ideal.ofBits_zero_f32

/-- A contraction over the 256 lanes against a column of a block-diagonal matrix is node p's own 64-term
    contraction: the other three blocks contribute a · (0 · w) = 0. -/
theorem blockdiag_sum (e : Fin 4 → Fin 4 → EReal) (he : ∀ q p, e q p = if q = p then 1 else 0)
    (a : Fin 4 → Fin 64 → EReal) (w : Fin 64 → EReal) (p : Fin 4)
    (x y : Fin 256 → EReal) (hx : ∀ q k, x (lane q k) = a q k) (hy : ∀ q k, y (lane q k) = e q p * w k) :
    ∑ c : Fin 256, x c * y c = ∑ k : Fin 64, a p k * w k :=
  Cert.Lib.BlockDiag.blockdiag_sum (A := 4) (B := 64) (N := 256) rfl e he a w p x y hx hy

/-- The four packed values contracted against the p-th column of the identity pattern spread over a block of lanes:
    the p-th value. -/
theorem onehot_sum (e : Fin 4 → Fin 4 → EReal) (he : ∀ q p, e q p = if q = p then 1 else 0)
    (d : Fin 4 → EReal) (p : Fin 4) (z : Fin 4 → EReal) (hz : ∀ q, z q = e q p * oneW) :
    ∑ q : Fin 4, d q * z q = d p :=
  Cert.Lib.BlockDiag.onehot_sum e he d p z fun q => by rw [hz, oneW_eq, mul_one]

/-- Dividing each message sum by a real d ≥ 1 before the contraction is multiplying the contraction by 1 / d after
    it. -/
theorem mean_after (a w : Fin 64 → EReal) (d : ℝ) (hd : 1 ≤ d) :
    (∑ k : Fin 64, a k * w k) * Ideal.div oneW (d : EReal) = ∑ k : Fin 64, Ideal.div (a k) (d : EReal) * w k := by
  rw [oneW_eq]
  exact Cert.Lib.BlockDiag.mean_after a w d hd

/-- The clamp of a nonnegative real count at one is a real that is at least one. -/
theorem clamp_real (x : EReal) (hx : ∃ r : ℝ, 0 ≤ r ∧ x = (r : EReal)) :
    ∃ d : ℝ, 1 ≤ d ∧ max x oneW = (d : EReal) := by
  obtain ⟨r, _, rfl⟩ := hx
  refine ⟨max r 1, le_max_right _ _, ?_⟩
  rw [oneW_eq, show (1 : EReal) = ((1 : ℝ) : EReal) by norm_cast]
  exact (Cert.Spec.coe_max r 1).symm

/-- THE HIDDEN STATE, PACKED. Entry (r, 64·p + h) of the kernel's first result — the 256-lane contraction of the packed
    message sums against the block-diagonal W, times the one-hot spread of the packed reciprocal degrees, plus the
    256-lane contraction of the packed features against the block-diagonal B, plus the tiled bias, rectified — is the
    layer's hidden state of node 4·r + p at h. The degrees are counts: nonnegative reals. -/
theorem packed_hidden (agg : Fin 100000 → Fin 64 → EReal) (deg : Fin 100000 → EReal) (u : Fin 100000 → Fin 64 → EReal)
    (W B : Fin 64 → Fin 64 → EReal) (b : Fin 64 → EReal)
    (hdeg : ∀ n, ∃ r : ℝ, 0 ≤ r ∧ deg n = (r : EReal))
    (e : Fin 4 → Fin 4 → EReal) (he : ∀ q p, e q p = if q = p then 1 else 0)
    (r : Fin 25000) (p : Fin 4) (h : Fin 64)
    (a4 w4 u4 b4 : Fin 256 → EReal) (dk z : Fin 4 → EReal) (bv : EReal)
    (ha : ∀ q k, a4 (lane q k) = agg (node r q) k) (hw : ∀ q k, w4 (lane q k) = e q p * W k h)
    (hu : ∀ q k, u4 (lane q k) = u (node r q) k) (hb4 : ∀ q k, b4 (lane q k) = e q p * B k h)
    (hdk : ∀ q, dk q = Ideal.div oneW (max (deg (node r q)) oneW)) (hz : ∀ q, z q = e q p * oneW)
    (hbv : bv = b h) :
    max ((((∑ c : Fin 256, a4 c * w4 c) * ∑ q : Fin 4, dk q * z q) + ∑ c : Fin 256, u4 c * b4 c) + bv) zeroW
      = hidden agg deg u W B b (node r p) h := by
  obtain ⟨d, hd1, hd⟩ := clamp_real (deg (node r p)) (hdeg (node r p))
  rw [blockdiag_sum e he (fun q k => agg (node r q) k) (fun k => W k h) p a4 w4 ha hw,
    blockdiag_sum e he (fun q k => u (node r q) k) (fun k => B k h) p u4 b4 hu hb4,
    onehot_sum e he dk p z hz, hdk, hd, mean_after _ _ d hd1, hbv]
  unfold hidden clampDeg
  rw [hd]

/-- THE HEAD, PACKED. Entry (r, 32·p + j) of the kernel's second result — the 256-lane contraction of the packed
    hidden states against the block-diagonal Wp plus the tiled head bias — is the layer's head of node 4·r + p at j. -/
theorem packed_head (x : Fin 100000 → Fin 64 → EReal) (Wp : Fin 64 → Fin 32 → EReal) (bp : Fin 32 → EReal)
    (e : Fin 4 → Fin 4 → EReal) (he : ∀ q p, e q p = if q = p then 1 else 0)
    (r : Fin 25000) (p : Fin 4) (j : Fin 32)
    (x4 wp4 : Fin 256 → EReal) (bv : EReal)
    (hx : ∀ q k, x4 (lane q k) = x (node r q) k) (hwp : ∀ q k, wp4 (lane q k) = e q p * Wp k j) (hbv : bv = bp j) :
    (∑ c : Fin 256, x4 c * wp4 c) + bv = head x Wp bp (node r p) j := by
  rw [blockdiag_sum e he (fun q k => x (node r q) k) (fun k => Wp k j) p x4 wp4 hx hwp, hbv]
  rfl

end Cert.Layer

end
-- ==== Proof.KernelValue.lean ====
/-
  The kernel's two results as the layer of the arguments.

  The packed result arrays are functions of the operand arrays (hiddenArr, headArr); the operand arrays are the host's
  named terms of the arguments; those terms read at an index are the packed forms of the message sums, degrees,
  features and block-diagonal parameters; and the algebra of the packing turns the packed row formulas into the
  layer's hidden state and head of node 4·r + p. Unpacking the rows back to one node per row gives the results.
-/
import proofs.«161085_j73383811220028_2_alg».proof.Proof.Blocks
import proofs.«161085_j73383811220028_2_alg».proof.Proof.TermReads
import proofs.«161085_j73383811220028_2_alg».proof.Proof.ScatterCols
import proofs.«161085_j73383811220028_2_alg».proof.Proof.Algebra

noncomputable section

namespace Cert.KernelIdeal.Bridge

open Cert.KernelIdeal Cert.KernelIdeal.Gen Cert.KernelIdeal.Blocks Cert.KernelIdeal.TermReads Cert.Layer Cert.Layer.Scatter
open Idealize.ShloMosaic Idealize.ShloMosaic.ValueIdx

/-- The message sums per node, as the reference's scatter states them. -/
def aggF (x0 : (⟨S100000x64, .f32⟩ : BufTy).Contents (Elt Ideal)) (x2 : (⟨S2x1600000, .i32⟩ : BufTy).Contents (Elt Ideal)) :
    Fin 100000 → Fin 64 → EReal := fun n k => Cert.ReferenceIdeal.Read.val_main_v13 (F := Ideal) x0 x2 (ix2 n k)

/-- The in-degrees, as the reference's scatter states them. -/
def degF (x2 : (⟨S2x1600000, .i32⟩ : BufTy).Contents (Elt Ideal)) : Fin 100000 → EReal :=
  fun n => Cert.ReferenceIdeal.Read.val_main_v17 (F := Ideal) x2 (ix1 n)

/-- The layer's hidden state of the arguments. -/
def hiddenOf (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal)) :
    Fin 100000 → Fin 64 → EReal :=
  hidden (aggF x0 x2) (degF x2) (fun n k => x1 (ix2 n k)) (fun k h => x3 (ix2 k h)) (fun k h => x4 (ix2 k h)) (fun h => x5 (ix1 h))

/-- The layer's head of the arguments. -/
def headOf (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    Fin 100000 → Fin 32 → EReal :=
  head (hiddenOf x0 x1 x2 x3 x4 x5) (fun h j => x6 (ix2 h j)) (fun j => x7 (ix1 j))

/-- The first result as an array: the hidden state of node i₀ at i₁. -/
def hiddenRes (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal)) :
    S100000x64.Idx → EReal :=
  fun i => hiddenOf x0 x1 x2 x3 x4 x5 ⟨(i 0).val, (i 0).isLt⟩ ⟨(i 1).val, (i 1).isLt⟩

/-- The second result as an array: the head of node i₀ at i₁. -/
def headRes (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    S100000x32.Idx → EReal :=
  fun i => headOf x0 x1 x2 x3 x4 x5 x6 x7 ⟨(i 0).val, (i 0).isLt⟩ ⟨(i 1).val, (i 1).isLt⟩

section Packed

variable (x0 x1 : (⟨S100000x64, .f32⟩ : BufTy).Contents (Elt Ideal)) (x2 : (⟨S2x1600000, .i32⟩ : BufTy).Contents (Elt Ideal))
  (x3 x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))

/-- The identity pattern's entries. -/
abbrev eyeF (q p : Fin 4) : EReal := Terms.eye (F := Ideal) (ix2 q p)

/-- Packed row r, lane 64·p + h of the host's operands gives node 4·r + p's hidden state at h. -/
theorem hidden_packed (r : Fin 25000) (p : Fin 4) (h : Fin 64) :
    rowHidden (Terms.agg4 (F := Ideal) x0 x2) (Terms.u4 (F := Ideal) x1) (Terms.degPk (F := Ideal) x0 x2)
        (Terms.kron64 (F := Ideal) Terms.eye x3) (Terms.kron64 (F := Ideal) Terms.eye x4) (Terms.e4 (F := Ideal))
        (Terms.b4 (F := Ideal) x5) r (lane p h)
      = hiddenOf x0 x1 x2 x3 x4 x5 (node r p) h := by
  unfold rowHidden hiddenOf
  exact packed_hidden (aggF x0 x2) (degF x2) (fun n k => x1 (ix2 n k)) (fun k h => x3 (ix2 k h)) (fun k h => x4 (ix2 k h))
    (fun h => x5 (ix1 h)) (fun n => deg_real x2 n) eyeF (fun q p => eye_apply q p) r p h
    (fun c => Terms.agg4 (F := Ideal) x0 x2 (ix2 r c)) (fun c => Terms.kron64 (F := Ideal) Terms.eye x3 (ix2 c (lane p h)))
    (fun c => Terms.u4 (F := Ideal) x1 (ix2 r c)) (fun c => Terms.kron64 (F := Ideal) Terms.eye x4 (ix2 c (lane p h)))
    (fun q => Terms.degPk (F := Ideal) x0 x2 (ix2 r q)) (fun q => Terms.e4 (F := Ideal) (ix2 q (lane p h)))
    (Terms.b4 (F := Ideal) x5 (ix2 (0 : Fin 1) (lane p h)))
    (fun q k => (agg4_apply x0 x2 r q k).trans (aggS_eq x0 x2 (node r q) k))
    (fun q k => kron64_apply Terms.eye x3 q p k h)
    (fun q k => u4_apply x1 r q k)
    (fun q k => kron64_apply Terms.eye x4 q p k h)
    (fun q => (degPk_apply x0 x2 r q).trans
      (congrArg (fun d : EReal => Ideal.div oneW (max d oneW)) (degS_eq x0 x2 (node r q))))
    (fun q => (kronRow_apply Terms.eye Terms.onesRow q p h).trans
      (congrArg (fun w : EReal => Terms.eye (F := Ideal) (ix2 q p) * w) (onesRow_apply h)))
    (b4_apply x5 p h)

/-- Packed row r, lane 32·p + j of the head gives node 4·r + p's head at j. -/
theorem head_packed (r : Fin 25000) (p : Fin 4) (j : Fin 32) :
    rowHead (rowHidden (Terms.agg4 (F := Ideal) x0 x2) (Terms.u4 (F := Ideal) x1) (Terms.degPk (F := Ideal) x0 x2)
        (Terms.kron64 (F := Ideal) Terms.eye x3) (Terms.kron64 (F := Ideal) Terms.eye x4) (Terms.e4 (F := Ideal))
        (Terms.b4 (F := Ideal) x5)) (Terms.kron32 (F := Ideal) Terms.eye x6) (Terms.bp4 (F := Ideal) x7) r (lane32 p j)
      = headOf x0 x1 x2 x3 x4 x5 x6 x7 (node r p) j := by
  unfold rowHead headOf
  exact packed_head (hiddenOf x0 x1 x2 x3 x4 x5) (fun h j => x6 (ix2 h j)) (fun j => x7 (ix1 j)) eyeF (fun q p => eye_apply q p) r p j
    (fun c => rowHidden (Terms.agg4 (F := Ideal) x0 x2) (Terms.u4 (F := Ideal) x1) (Terms.degPk (F := Ideal) x0 x2)
        (Terms.kron64 (F := Ideal) Terms.eye x3) (Terms.kron64 (F := Ideal) Terms.eye x4) (Terms.e4 (F := Ideal))
        (Terms.b4 (F := Ideal) x5) r c)
    (fun c => Terms.kron32 (F := Ideal) Terms.eye x6 (ix2 c (lane32 p j)))
    (Terms.bp4 (F := Ideal) x7 (ix2 (0 : Fin 1) (lane32 p j)))
    (fun q k => hidden_packed x0 x1 x2 x3 x4 x5 r q k)
    (fun q k => kron32_apply Terms.eye x6 q p k j)
    (bp4_apply x7 p j)

/-- Node n is the (n mod 4)-th node of packed row n / 4. -/
theorem node_div_mod (n : Fin 100000) :
    node ⟨n.val / 4, by have := n.isLt; omega⟩ ⟨n.val % 4, Nat.mod_lt _ (by decide)⟩ = n :=
  Fin.ext (by show 4 * (n.val / 4) + n.val % 4 = n.val; omega)

/-- THE FIRST RESULT: the packed hidden array of the host's operands, unpacked to one node per row, is the layer's
    hidden state. -/
theorem hidden_unpacked (n : Fin 100000) (h : Fin 64) :
    shapeCast S100000x64 (hiddenArr (Terms.agg4 (F := Ideal) x0 x2) (Terms.u4 (F := Ideal) x1) (Terms.degPk (F := Ideal) x0 x2)
        (Terms.kron64 (F := Ideal) Terms.eye x3) (Terms.kron64 (F := Ideal) Terms.eye x4) (Terms.e4 (F := Ideal))
        (Terms.b4 (F := Ideal) x5)) shapeCasts_S25000x256_S100000x64 (ix2 n h)
      = hiddenOf x0 x1 x2 x3 x4 x5 n h := by
  rw [unpack256]
  refine Eq.trans ?_ (congrArg (fun n' => hiddenOf x0 x1 x2 x3 x4 x5 n' h) (node_div_mod n))
  exact hidden_packed x0 x1 x2 x3 x4 x5 ⟨n.val / 4, by have := n.isLt; omega⟩ ⟨n.val % 4, Nat.mod_lt _ (by decide)⟩ h

/-- THE SECOND RESULT: the packed head array, unpacked, is the layer's head. -/
theorem head_unpacked (n : Fin 100000) (j : Fin 32) :
    shapeCast S100000x32 (headArr (Terms.agg4 (F := Ideal) x0 x2) (Terms.u4 (F := Ideal) x1) (Terms.degPk (F := Ideal) x0 x2)
        (Terms.kron64 (F := Ideal) Terms.eye x3) (Terms.kron64 (F := Ideal) Terms.eye x4) (Terms.e4 (F := Ideal))
        (Terms.b4 (F := Ideal) x5) (Terms.kron32 (F := Ideal) Terms.eye x6) (Terms.bp4 (F := Ideal) x7))
        shapeCasts_S25000x128_S100000x32 (ix2 n j)
      = headOf x0 x1 x2 x3 x4 x5 x6 x7 n j := by
  rw [unpack128]
  refine Eq.trans ?_ (congrArg (fun n' => headOf x0 x1 x2 x3 x4 x5 x6 x7 n' j) (node_div_mod n))
  exact head_packed x0 x1 x2 x3 x4 x5 x6 x7 ⟨n.val / 4, by have := n.isLt; omega⟩ ⟨n.val % 4, Nat.mod_lt _ (by decide)⟩ j

end Packed

end Cert.KernelIdeal.Bridge

end
-- ==== Proof.HostPre.lean ====
/-
  What the host prepares before the fused kernel starts, and what it does with the kernel's two outputs.

  Before the kernel: each of the nine arrays the kernel reads is a fixed function of the program's arguments — the
  message sums and the reciprocal clamped degrees packed four nodes to a row (from the features and the edge list),
  the node features packed the same way, the Kronecker products of the 4 × 4 identity pattern with the three weight
  matrices and with a row of ones, and the two biases repeated four times. Each equation below reads one array off
  the line of host operations, operation by operation: an operation's result buffer holds its function's value of
  its operands' buffers, and every other buffer is as it was.

  After the kernel: each of the program's two results is the kernel's output array read at the unpacked shape, one
  node to a row; and neither result buffer is one of the kernel's own arrays.
-/
import proofs.«161085_j73383811220028_2_alg».proof.Proof.Gen.KernelIdeal.Frame
import proofs.«161085_j73383811220028_2_alg».proof.Proof.KernelTerms
import Idealize.ShloMosaic.Lib.StableHlo.Run
import Idealize.ShloMosaic.PureOps.Ideal

noncomputable section

namespace Cert.KernelIdeal.HostPre

open Cert.KernelIdeal Cert.KernelIdeal.Gen Idealize.ShloMosaic Idealize.ShloMosaic.TcCoe Idealize.ShloMosaic.StableHlo

variable (m : (ℓ : Loc nD τ sig) → Buf (Elt Ideal) ℓ) (c : Dev nD)

/-- One operation at a time: at its own result buffer an operation leaves its function's value of its operands'
    contents, and at any other buffer it leaves what was there. Applied until no operation is left; it also reaches
    operands that stand inside a list of arrays tagged with their shapes, as the two operands of a concatenation do. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The nine arrays the kernel reads -/

set_option maxHeartbeats 2000000 in
/-- The first array the kernel reads holds the message sums per destination node (the gathered source rows,
    scatter-added by destination, columns 0–63), four nodes to a row. -/
theorem V_v23 : (Gen.V m c main_v23 : S25000x256.Idx → EReal)
    = Terms.agg4 (F := Ideal) (m ((c : Thread nD τ).loc main_arg0)) (m ((c : Thread nD τ).loc main_arg2)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  results_rw
  rfl

set_option maxHeartbeats 2000000 in
/-- The second array holds one over the in-degree clamped below at one (the scatter-added column of ones), four nodes
    to a row. -/
theorem V_v25 : (Gen.V m c main_v25 : S25000x4.Idx → EReal)
    = Terms.degPk (F := Ideal) (m ((c : Thread nD τ).loc main_arg0)) (m ((c : Thread nD τ).loc main_arg2)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  results_rw
  rfl

/-- The third array holds the node features, four nodes to a row. -/
theorem V_v24 : (Gen.V m c main_v24 : S25000x256.Idx → EReal)
    = Terms.u4 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The fourth array holds the Kronecker product of the 4 × 4 identity pattern with the first 64 × 64 weight matrix. -/
theorem V_v32 : (Gen.V m c main_v32 : S256x256.Idx → EReal)
    = Terms.kron64 (F := Ideal) Terms.eye (m ((c : Thread nD τ).loc main_arg3)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The fifth array holds the Kronecker product of the 4 × 4 identity pattern with the second 64 × 64 weight matrix. -/
theorem V_v33 : (Gen.V m c main_v33 : S256x256.Idx → EReal)
    = Terms.kron64 (F := Ideal) Terms.eye (m ((c : Thread nD τ).loc main_arg4)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The sixth array holds the bias of 64 entries repeated four times, as one row of 256. -/
theorem V_v38 : (Gen.V m c main_v38 : S1x256.Idx → EReal)
    = Terms.b4 (F := Ideal) (m ((c : Thread nD τ).loc main_arg5)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The seventh array holds the Kronecker product of the 4 × 4 identity pattern with the 64 × 32 head weights. -/
theorem V_v34 : (Gen.V m c main_v34 : S256x128.Idx → EReal)
    = Terms.kron32 (F := Ideal) Terms.eye (m ((c : Thread nD τ).loc main_arg6)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The eighth array holds the head bias of 32 entries repeated four times, as one row of 128. -/
theorem V_v42 : (Gen.V m c main_v42 : S1x128.Idx → EReal)
    = Terms.bp4 (F := Ideal) (m ((c : Thread nD τ).loc main_arg7)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 2000000 in
/-- The ninth array holds the Kronecker product of the 4 × 4 identity pattern with a row of 64 ones: the matrix that
    spreads a packed row's four values over its four blocks of 64 lanes. It depends on no argument. -/
theorem V_v50 : (Gen.V m c main_v50 : S4x256.Idx → EReal) = Terms.e4 (F := Ideal) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-! ## The two results after the kernel -/

/-- The first result is the kernel's first output array (25000 × 256, four nodes to a row) read one node to a row,
    100000 × 64. -/
theorem tail_v52 :
    Pipeline.afterTail₀ cfgs (Gen.dats m) 0 (Gen.V0 m) [Gen.hostOps1] c main_v52
      = shapeCast _ ((Gen.dats m 0 c).arrAt 9 cfg0.N) shapeCasts_S25000x256_S100000x64 := by
  have h : Pipeline.withArrays (cfgs 0).spec c (Gen.V0 m c) (fun w => (Gen.dats m 0 c).arrAt w (cfgs 0).N)
        (Proc.devRef .tc main_v51_0)
      = (Gen.dats m 0 c).arrAt 9 cfg0.N :=
    Pipeline.withArrays_arr spec0 launch0.win.arr_inj c _ _ 9
  unfold Pipeline.afterTail₀
  show StableHlo.after Gen.hostOps1 _ (Proc.devRef .tc main_v52) = _
  after_results
  rw [h]
  rfl

/-- The second result is the kernel's second output array (25000 × 128, four nodes to a row) read one node to a row,
    100000 × 32. -/
theorem tail_v53 :
    Pipeline.afterTail₀ cfgs (Gen.dats m) 0 (Gen.V0 m) [Gen.hostOps1] c main_v53
      = shapeCast _ ((Gen.dats m 0 c).arrAt 10 cfg0.N) shapeCasts_S25000x128_S100000x32 := by
  have h : Pipeline.withArrays (cfgs 0).spec c (Gen.V0 m c) (fun w => (Gen.dats m 0 c).arrAt w (cfgs 0).N)
        (Proc.devRef .tc main_v51_1)
      = (Gen.dats m 0 c).arrAt 10 cfg0.N :=
    Pipeline.withArrays_arr spec0 launch0.win.arr_inj c _ _ 10
  unfold Pipeline.afterTail₀
  show StableHlo.after Gen.hostOps1 _ (Proc.devRef .tc main_v53) = _
  after_results
  rw [h]
  rfl

/-- The first result's buffer is an unscoped buffer that is none of the kernel's eleven arrays. -/
theorem v52_rest : main_v52 ∈ Pipeline.restRefs sig spec0 :=
  Pipeline.mem_restRefs_of main_v52 (by decide) (by decide)

/-- The second result's buffer is an unscoped buffer that is none of the kernel's eleven arrays. -/
theorem v53_rest : main_v53 ∈ Pipeline.restRefs sig spec0 :=
  Pipeline.mem_restRefs_of main_v53 (by decide) (by decide)

end Cert.KernelIdeal.HostPre

end
-- ==== Proof.KernelRun.lean ====
/-
  The idealized kernel's run, read: every weakly fair execution ends with the first result at the layer's hidden state of
  the arguments and the second at the layer's head, index by index, the arguments unchanged.

  The frame run names the two region outputs; the two reshapes after the region unpack them; the region's operand
  arrays are the host's named terms of the arguments.
-/
import proofs.«161085_j73383811220028_2_alg».proof.Proof.KernelValue
import proofs.«161085_j73383811220028_2_alg».proof.Proof.HostPre

set_option maxRecDepth 16384

noncomputable section

namespace Cert.KernelIdeal.Bridge

open Cert.KernelIdeal Cert.KernelIdeal.Gen Cert.KernelIdeal.Blocks
open Idealize.ShloMosaic Idealize.ShloMosaic.TcCoe Idealize.ShloMosaic.ValueIdx Idealize.SL.Sem

variable (m : (ℓ : Loc nD τ sig) → Buf (Elt Ideal) ℓ) (ρ : Dev nD → PrngReg)

/-- hiddenArr of equal operand arrays. -/
theorem hiddenArr_congr {A A' U U' : S25000x256.Idx → EReal} {D D' : S25000x4.Idx → EReal}
    {W W' B B' : S256x256.Idx → EReal} {E E' : S4x256.Idx → EReal} {bb bb' : S1x256.Idx → EReal}
    (hA : A = A') (hU : U = U') (hD : D = D') (hW : W = W') (hB : B = B') (hE : E = E') (hb : bb = bb') :
    hiddenArr A U D W B E bb = hiddenArr A' U' D' W' B' E' bb' := by
  subst hA hU hD hW hB hE hb; rfl

/-- headArr of equal operand arrays. -/
theorem headArr_congr {A A' U U' : S25000x256.Idx → EReal} {D D' : S25000x4.Idx → EReal}
    {W W' B B' : S256x256.Idx → EReal} {E E' : S4x256.Idx → EReal} {bb bb' : S1x256.Idx → EReal}
    {Wp Wp' : S256x128.Idx → EReal} {bp bp' : S1x128.Idx → EReal}
    (hA : A = A') (hU : U = U') (hD : D = D') (hW : W = W') (hB : B = B') (hE : E = E') (hb : bb = bb')
    (hWp : Wp = Wp') (hbp : bp = bp') :
    headArr A U D W B E bb Wp bp = headArr A' U' D' W' B' E' bb' Wp' bp' := by
  subst hA hU hD hW hB hE hb hWp hbp; rfl

/-- The region's first output array, unpacked, is the hidden state of the arguments. -/
theorem arr9_eq (c : Dev nD) :
    shapeCast S100000x64 ((dats m 0 c).arrAt 9 cfg0.N : S25000x256.Idx → EReal) shapeCasts_S25000x256_S100000x64
      = hiddenRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (congrArg (fun y : S25000x256.Idx → EReal => shapeCast S100000x64 y shapeCasts_S25000x256_S100000x64)
    ((final9 m c).trans (hiddenArr_congr (HostPre.V_v23 m c) (HostPre.V_v24 m c) (HostPre.V_v25 m c)
      (HostPre.V_v32 m c) (HostPre.V_v33 m c) (HostPre.V_v50 m c) (HostPre.V_v38 m c)))).trans ?_
  funext i
  obtain ⟨n, h, rfl⟩ : ∃ (n : Fin 100000) (h : Fin 64), i = ix2 n h := ⟨i 0, i 1, eq_ix2 i⟩
  exact hidden_unpacked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n h

/-- The region's second output array, unpacked, is the head of the arguments. -/
theorem arr10_eq (c : Dev nD) :
    shapeCast S100000x32 ((dats m 0 c).arrAt 10 cfg0.N : S25000x128.Idx → EReal) shapeCasts_S25000x128_S100000x32
      = headRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (congrArg (fun y : S25000x128.Idx → EReal => shapeCast S100000x32 y shapeCasts_S25000x128_S100000x32)
    ((final10 m c).trans (headArr_congr (HostPre.V_v23 m c) (HostPre.V_v24 m c) (HostPre.V_v25 m c)
      (HostPre.V_v32 m c) (HostPre.V_v33 m c) (HostPre.V_v50 m c) (HostPre.V_v38 m c)
      (HostPre.V_v34 m c) (HostPre.V_v42 m c)))).trans ?_
  funext i
  obtain ⟨n, j, rfl⟩ : ∃ (n : Fin 100000) (j : Fin 32), i = ix2 n j := ⟨i 0, i 1, eq_ix2 i⟩
  exact head_unpacked (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n j

/-- THE KERNEL'S RUN: both results at the layer of the arguments, the arguments unchanged. -/
theorem kernel_run : θ_run defs (onTc (τ := τ) (main (F := Ideal))) ⟨m, fun _ => 0, ρ⟩ (fun r => ∀ c : Dev nD,
      r.2.mem ((c.tc : Thread nD τ).loc main_v52) = hiddenRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v53) = headRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v52 HostPre.v52_rest).trans ((HostPre.tail_v52 m c).trans (arr9_eq m c)),
      ((h c).2 main_v53 HostPre.v53_rest).trans ((HostPre.tail_v53 m c).trans (arr10_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Bridge

end
-- ==== Proof.RefSpec.lean ====
/-
  The reference program, read one element at a time, computes the layer of Spec.

  Its hidden state at node n, lane h is the rectified sum of three terms: the message sums of n, each divided by the
  in-degree of n clamped below by one, through W; the features of n through B; the bias. Its output at node n, lane j
  is the hidden state of n through Wp plus the head's bias. Each statement is obtained by reading every operation of
  the program at an index and identifying the index each operand is read at.
-/
import proofs.«161085_j73383811220028_2_alg».proof.Proof.Gen.ReferenceIdeal.Read
import proofs.«161085_j73383811220028_2_alg».proof.Proof.Spec

noncomputable section

open scoped BigOperators

namespace Cert.Layer.Ref

open Cert.ReferenceIdeal Cert.ReferenceIdeal.Gen Cert.ReferenceIdeal.Read Idealize.ShloMosaic Idealize.ShloMosaic.ValueIdx

/-! ### The indices the operands are read at -/

/-- Row n of the left operand of the first product, at the contraction index k. -/
theorem lidx23_eq (n : Fin 100000) (h k : Fin 64) : lidx_main_v23 (ix2 n h) k = ix2 n k :=
  funext fun a => Fin.ext (by match a with | ⟨0, _⟩ => rfl | ⟨1, _⟩ => rfl)

/-- Column h of W, at the contraction index k. -/
theorem ridx23_eq (n : Fin 100000) (h k : Fin 64) : ridx_main_v23 (ix2 n h) k = ix2 k h :=
  funext fun a => Fin.ext (by match a with | ⟨0, _⟩ => rfl | ⟨1, _⟩ => rfl)

/-- Row n of the features, at the contraction index k. -/
theorem lidx24_eq (n : Fin 100000) (h k : Fin 64) : lidx_main_v24 (ix2 n h) k = ix2 n k :=
  funext fun a => Fin.ext (by match a with | ⟨0, _⟩ => rfl | ⟨1, _⟩ => rfl)

/-- Column h of B, at the contraction index k. -/
theorem ridx24_eq (n : Fin 100000) (h k : Fin 64) : ridx_main_v24 (ix2 n h) k = ix2 k h :=
  funext fun a => Fin.ext (by match a with | ⟨0, _⟩ => rfl | ⟨1, _⟩ => rfl)

/-- The clamped degree spread over the 64 lanes is read in the one column of the degree column … -/
theorem idx21_eq (n : Fin 100000) (k : Fin 64) : idx_main_v21 (ix2 n k) = ix2 n (0 : Fin 1) :=
  funext fun a => Fin.ext (by match a with | ⟨0, _⟩ => rfl | ⟨1, _⟩ => rfl)

/-- … which reads the flat degree array at n. -/
theorem idx20_eq (n : Fin 100000) : idx_main_v20 (ix2 n (0 : Fin 1)) = ix1 n :=
  funext fun a => Fin.ext (by match a with | ⟨0, _⟩ => rfl)

/-- The bias spread over the nodes is read in the one row of the bias row … -/
theorem idx27_eq (n : Fin 100000) (h : Fin 64) : idx_main_v27 (ix2 n h) = ix2 (0 : Fin 1) h :=
  funext fun a => Fin.ext (by match a with | ⟨0, _⟩ => rfl | ⟨1, _⟩ => rfl)

/-- … which reads the bias at h. -/
theorem idx26_eq (h : Fin 64) : idx_main_v26 (ix2 (0 : Fin 1) h) = ix1 h :=
  funext fun a => Fin.ext (by match a with | ⟨0, _⟩ => rfl)

/-- Row n of the hidden state, at the contraction index h. -/
theorem lidx30_eq (n : Fin 100000) (j : Fin 32) (h : Fin 64) : lidx_main_v30 (ix2 n j) h = ix2 n h :=
  funext fun a => Fin.ext (by match a with | ⟨0, _⟩ => rfl | ⟨1, _⟩ => rfl)

/-- Column j of Wp, at the contraction index h. -/
theorem ridx30_eq (n : Fin 100000) (j : Fin 32) (h : Fin 64) : ridx_main_v30 (ix2 n j) h = ix2 h j :=
  funext fun a => Fin.ext (by match a with | ⟨0, _⟩ => rfl | ⟨1, _⟩ => rfl)

/-- The head's bias spread over the nodes is read in the one row of its row … -/
theorem idx32_eq (n : Fin 100000) (j : Fin 32) : idx_main_v32 (ix2 n j) = ix2 (0 : Fin 1) j :=
  funext fun a => Fin.ext (by match a with | ⟨0, _⟩ => rfl | ⟨1, _⟩ => rfl)

/-- … which reads the head's bias at j. -/
theorem idx31_eq (j : Fin 32) : idx_main_v31 (ix2 (0 : Fin 1) j) = ix1 j :=
  funext fun a => Fin.ext (by match a with | ⟨0, _⟩ => rfl)

/-! ### The two results -/

/-- The quotient inside the first product, at row n and contraction index k: the message sum over the in-degree of
    n clamped below by the word of 1.0. -/
theorem v22_at (x0 : (⟨S100000x64, .f32⟩ : BufTy).Contents (Elt Ideal))
    (x2 : (⟨S2x1600000, .i32⟩ : BufTy).Contents (Elt Ideal)) (n : Fin 100000) (h k : Fin 64) :
    val_main_v22 (F := Ideal) x0 x2 (lidx_main_v23 (ix2 n h) k)
      = Ideal.div (val_main_v13 (F := Ideal) x0 x2 (ix2 n k)) (max (val_main_v17 (F := Ideal) x2 (ix1 n)) Cert.Layer.oneW) := by
  rw [lidx23_eq, val_main_v22_apply, val_main_v21_apply, idx21_eq, val_main_v20_apply, idx20_eq, val_main_v19_apply,
    val_main_v18_apply, val_main_cst_3_apply]
  rfl

/-- The reference's hidden state at (n, h) is the layer's: the rectified sum of the mean aggregation through W, the
    features through B and the bias, the aggregation and the degree being the reference's two scatters. -/
theorem ref_hidden (x0 x1 : (⟨S100000x64, .f32⟩ : BufTy).Contents (Elt Ideal))
    (x2 : (⟨S2x1600000, .i32⟩ : BufTy).Contents (Elt Ideal)) (x3 x4 : (⟨S64x64, .f32⟩ : BufTy).Contents (Elt Ideal))
    (x5 : (⟨S64, .f32⟩ : BufTy).Contents (Elt Ideal)) (n : Fin 100000) (h : Fin 64) :
    Cert.ReferenceIdeal.Read.val_main_v29 (F := Ideal) x0 x1 x2 x3 x4 x5 (ix2 n h)
      = Cert.Layer.hidden (fun n k => Cert.ReferenceIdeal.Read.val_main_v13 (F := Ideal) x0 x2 (ix2 n k))
          (fun n => Cert.ReferenceIdeal.Read.val_main_v17 (F := Ideal) x2 (ix1 n))
          (fun n k => x1 (ix2 n k)) (fun k h => x3 (ix2 k h)) (fun k h => x4 (ix2 k h)) (fun h => x5 (ix1 h)) n h := by
  rw [val_main_v29_apply, val_main_v28_apply, val_main_v25_apply, val_main_v23_apply, val_main_v24_apply,
    val_main_v27_apply, val_main_v26_apply, val_main_call0_v0_apply, val_main_call0_cst_apply, idx27_eq, idx26_eq]
  have e1 : (∑ k : Fin 64, val_main_v22 (F := Ideal) x0 x2 (lidx_main_v23 (ix2 n h) k) * x3 (ridx_main_v23 (ix2 n h) k))
      = ∑ k : Fin 64, Ideal.div (val_main_v13 (F := Ideal) x0 x2 (ix2 n k))
          (max (val_main_v17 (F := Ideal) x2 (ix1 n)) Cert.Layer.oneW) * x3 (ix2 k h) :=
    Finset.sum_congr rfl fun k _ => by rw [v22_at, ridx23_eq]
  have e2 : (∑ k : Fin 64, x1 (lidx_main_v24 (ix2 n h) k) * x4 (ridx_main_v24 (ix2 n h) k))
      = ∑ k : Fin 64, x1 (ix2 n k) * x4 (ix2 k h) :=
    Finset.sum_congr rfl fun k _ => by rw [lidx24_eq, ridx24_eq]
  rw [e1, e2]
  rfl

/-- The reference's output at (n, j) is the layer's head on its hidden state. -/
theorem ref_head (x0 x1 : (⟨S100000x64, .f32⟩ : BufTy).Contents (Elt Ideal))
    (x2 : (⟨S2x1600000, .i32⟩ : BufTy).Contents (Elt Ideal)) (x3 x4 : (⟨S64x64, .f32⟩ : BufTy).Contents (Elt Ideal))
    (x5 : (⟨S64, .f32⟩ : BufTy).Contents (Elt Ideal)) (x6 : (⟨S64x32, .f32⟩ : BufTy).Contents (Elt Ideal))
    (x7 : (⟨S32, .f32⟩ : BufTy).Contents (Elt Ideal)) (n : Fin 100000) (j : Fin 32) :
    Cert.ReferenceIdeal.Read.val_main_v33 (F := Ideal) x0 x1 x2 x3 x4 x5 x6 x7 (ix2 n j)
      = Cert.Layer.head (fun n h => Cert.ReferenceIdeal.Read.val_main_v29 (F := Ideal) x0 x1 x2 x3 x4 x5 (ix2 n h))
          (fun h j => x6 (ix2 h j)) (fun j => x7 (ix1 j)) n j := by
  rw [val_main_v33_apply, val_main_v30_apply, val_main_v32_apply, val_main_v31_apply, idx32_eq, idx31_eq]
  have e1 : (∑ k : Fin 64, val_main_v29 (F := Ideal) x0 x1 x2 x3 x4 x5 (lidx_main_v30 (ix2 n j) k) * x6 (ridx_main_v30 (ix2 n j) k))
      = ∑ h : Fin 64, val_main_v29 (F := Ideal) x0 x1 x2 x3 x4 x5 (ix2 n h) * x6 (ix2 h j) :=
    Finset.sum_congr rfl fun k _ => by rw [lidx30_eq, ridx30_eq]
  rw [e1]
  rfl

end Cert.Layer.Ref

end
-- ==== Proof.RefRun.lean ====
/-
  The reference's two results as the layer of the arguments: its hidden state and its head, stage by stage, are the
  specification's hidden and head at every node, so as whole arrays they are the arrays the kernel's run ends at.
-/
import proofs.«161085_j73383811220028_2_alg».proof.Proof.RefSpec
import proofs.«161085_j73383811220028_2_alg».proof.Proof.KernelValue

noncomputable section

namespace Cert.Layer.Ref

open Cert.ReferenceIdeal Cert.ReferenceIdeal.Read Cert.KernelIdeal.Bridge Idealize.ShloMosaic Idealize.ShloMosaic.ValueIdx

/-- The reference's hidden state, as an array, is the layer's. -/
theorem ref_hiddenRes (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal)) :
    Read.val_main_v29 (F := Ideal) x0 x1 x2 x3 x4 x5 = hiddenRes x0 x1 x2 x3 x4 x5 := by
  funext i
  obtain ⟨n, h, rfl⟩ : ∃ (n : Fin 100000) (h : Fin 64), i = ix2 n h := ⟨i 0, i 1, eq_ix2 i⟩
  exact ref_hidden x0 x1 x2 x3 x4 x5 n h

/-- The reference's head, as an array, is the layer's. -/
theorem ref_headRes (x0 x1 : (⟨S100000x64, .f32⟩ : BufTy).Contents (Elt Ideal)) (x2 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal)) :
    Read.val_main_v33 (F := Ideal) x0 x1 x2 x3 x4 x5 x6 x7 = headRes x0 x1 x2 x3 x4 x5 x6 x7 := by
  funext i
  obtain ⟨n, j, rfl⟩ : ∃ (n : Fin 100000) (j : Fin 32), i = ix2 n j := ⟨i 0, i 1, eq_ix2 i⟩
  refine (ref_head x0 x1 x2 x3 x4 x5 x6 x7 n j).trans ?_
  have e : (fun (n : Fin 100000) (h : Fin 64) => Read.val_main_v29 (F := Ideal) x0 x1 x2 x3 x4 x5 (ix2 n h))
      = hiddenOf x0 x1 x2 x3 x4 x5 := funext fun n => funext fun h => ref_hidden x0 x1 x2 x3 x4 x5 n h
  rw [e]
  rfl

end Cert.Layer.Ref

end
-- ==== Proof.lean ====
/-
  A fused graph layer against its plain formulation, equal on the extended reals.

  Both programs gather one message per edge (the source node's row of x), add the messages up per destination node and
  count the edges into each node. The reference divides each node's sum by its count clamped at one, applies W, adds the
  node's own features through B and the bias, rectifies (the hidden state, first result), and applies the head Wp, bp
  (second result). The kernel scatters messages and a column of ones in ONE pass, packs four nodes to a row of 256
  lanes, multiplies by the block-diagonal matrices I₄ ⊗ W, I₄ ⊗ B, I₄ ⊗ Wp in tiles of 1000 packed rows, and applies
  the reciprocal of the clamped count AFTER the product with W, spread over a node's 64 lanes by a one-hot product.

  Why they agree at every index, with nothing assumed finite: the fused scatter's columns are scattered independently,
  so its first 64 columns and its last are the reference's two scatters; a block-diagonal contraction over 256 lanes
  collapses to the node's own 64 terms because a term off the diagonal is a · (0 · w) = 0; the clamped count is a real
  number at least one, so its reciprocal is a factor 0 ≤ c < ⊤, and such a factor moves across a finite sum of
  arbitrary extended reals; a change of float format is the identity and a matrix product into zero is the plain sum.

  The three frames are the generated ones (the reference's is its generated run with the results dropped); the
  idealization rewrote nothing, so the kernel's idealized text is its own.
-/
import proofs.«161085_j73383811220028_2_alg».proof.Defs
import proofs.«161085_j73383811220028_2_alg».proof.Proof.Gen.Kernel
import proofs.«161085_j73383811220028_2_alg».proof.Proof.Gen.Kernel.Frame
import proofs.«161085_j73383811220028_2_alg».proof.Proof.Gen.KernelIdeal
import proofs.«161085_j73383811220028_2_alg».proof.Proof.Gen.KernelIdeal.Frame
import proofs.«161085_j73383811220028_2_alg».proof.Proof.Gen.ReferenceIdeal
import proofs.«161085_j73383811220028_2_alg».proof.Proof.Gen.ReferenceIdeal.Run
import proofs.«161085_j73383811220028_2_alg».proof.Proof.Gen.ReferenceIdeal.Read
import proofs.«161085_j73383811220028_2_alg».proof.Proof.Gen.Pre_finite_inputs
import proofs.«161085_j73383811220028_2_alg».proof.Proof.KernelRun
import proofs.«161085_j73383811220028_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten when the kernel was idealized. -/
theorem preserves : Cert.preserves_Kernel_KernelIdeal := trivial

/-- Both runs end with the first result at the layer's hidden state and the second at the layer's head of the (agreeing)
    arguments. -/
theorem algebraic : Cert.algebraic_KernelIdeal_ReferenceIdeal := by
  intro m ρ m' ρ' _ hagree
  refine ⟨fun c => Cert.KernelIdeal.Bridge.hiddenRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Bridge.headRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Bridge.kernel_run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨?_, ?_, (h c).2.2⟩
  · refine (h c).1.trans ((Cert.ReferenceIdeal.Read.val_main_v29_eq _ _ _ _ _ _).trans ?_)
    rw [Cert.Layer.Ref.ref_hiddenRes, a0, a1, a2, a3, a4, a5]
  · refine (h c).2.1.trans ((Cert.ReferenceIdeal.Read.val_main_v33_eq _ _ _ _ _ _ _ _).trans ?_)
    rw [Cert.Layer.Ref.ref_headRes, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
